-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 56
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000x128, .f32⟩
  | .hbm, ⟨33, _⟩ => ⟨S_, .f32⟩
  | .hbm, ⟨34, _⟩ => ⟨S100000x128, .f32⟩
  | .hbm, ⟨35, _⟩ => ⟨S1700000x1, .i32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S_, .f32⟩
  | .hbm, ⟨49, _⟩ => ⟨S100000x128, .f32⟩
  | .hbm, ⟨50, _⟩ => ⟨S1700000x1, .i32⟩
  | .hbm, ⟨51, _⟩ => ⟨S100000x128, .f32⟩
  | .hbm, ⟨52, _⟩ => ⟨S1x128, .f32⟩
  | .hbm, ⟨53, _⟩ => ⟨S1x1, .f32⟩
  | .hbm, ⟨54, _⟩ => ⟨S100000x1, .f32⟩
  | .hbm, ⟨55, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S1700000x1, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | .hbm, ⟨96, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's whole run with EVERY unscoped buffer named: each ends at the contents the fold through
  @main's seven segments (four stretches of host operations around the three regions) computes for it. The frame claim
  keeps only the argument arrays of this; the value claim reads the result array off the same run.
-/
import proofs.«157852_j45268955300496_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Whole

end
-- ==== Proof.Spec.lean ====
/-
  A two-layer graph convolution with symmetric normalisation, read at the extended reals, in its two arrangements.

  Nodes n < 100000, features f < 128, edges e < 1700000 (the last 100000 of them the self-loops e = 1600000 + n ↦ n).
  `colS` holds each edge's target (the index a scatter-add lands the edge's message at: read signed, an edge whose
  target is outside [0, 100000) is dropped), `rowI` each edge's source as a gather reads it (read signed and clamped
  into the array), `colI` the target as a gather reads it. The degree of node n is the number of edges landing at n,
  `d n = deg(n)^(-1/2)`.

  Arrangement "scaled at the nodes" (`nodeScaled`): every layer scales its dense product by `d` at the source node
  before the edges gather it, and the aggregated sum by `d` at the target node afterwards.
  Arrangement "scaled at the edges" (`edgeScaled`): every edge's message is multiplied by `d(source) · d(target)`.
  Proof/Algebra.lean proves the two equal; the programs' sides identify each program's result with one of them.
-/
import Idealize.ShloMosaic.PureOps.Ideal
import Idealize.ShloMosaic.Lib.ValueIdx

noncomputable section

open scoped BigOperators

namespace Cert.Gcn

open Idealize.ShloMosaic Idealize.ShloMosaic.ValueIdx

abbrev SN : Shape := ⟨1, ![100000]⟩
abbrev SNC : Shape := ⟨2, ![100000, 128]⟩
abbrev SN1 : Shape := ⟨2, ![100000, 1]⟩
abbrev SE : Shape := ⟨1, ![1700000]⟩
abbrev SE1 : Shape := ⟨2, ![1700000, 1]⟩
abbrev SEC : Shape := ⟨2, ![1700000, 128]⟩
abbrev SCC : Shape := ⟨2, ![128, 128]⟩
abbrev SC : Shape := ⟨1, ![128]⟩
abbrev SC1 : Shape := ⟨2, ![128, 1]⟩
abbrev S1C : Shape := ⟨2, ![1, 128]⟩
abbrev S11 : Shape := ⟨2, ![1, 1]⟩
abbrev S1' : Shape := ⟨1, ![1]⟩

/-- Scatter of one value per edge into the nodes: edge e lands at node `colS (e, 0)`. -/
def scatN : ScatterDims SN SE1 SE where
  updateWindowDims := []
  insertedWindowDims := [0]
  scatterDimsToOperandDims := [0]
  indexVectorDim := 1
/-- Scatter of one row per edge into the node rows: entry (e, f) lands at (`colS (e, 0)`, f). -/
def scatNC : ScatterDims SNC SE1 SEC where
  updateWindowDims := [1]
  insertedWindowDims := [0]
  scatterDimsToOperandDims := [0]
  indexVectorDim := 1
/-- Gather of one value per edge from the nodes: edge e reads node `idx (e, 0)`, clamped. -/
def gathN : GatherDims SN SE1 SE where
  offsetDims := []
  collapsedSliceDims := [0]
  operandBatchingDims := []
  startIndicesBatchingDims := []
  startIndexMap := [0]
  indexVectorDim := 1
  sliceSizes := ![1]
/-- Gather of one row per edge from the node rows: entry (e, f) reads (`idx (e, 0)` clamped, f). -/
def gathNC : GatherDims SNC SE1 SEC where
  offsetDims := [1]
  collapsedSliceDims := [0]
  operandBatchingDims := []
  startIndicesBatchingDims := []
  startIndexMap := [0]
  indexVectorDim := 1
  sliceSizes := ![1, 128]

/-- Node degrees: the number of edges landing at each node, as an extended real. -/
def deg (colS : IVec SE1 32) : SN.Idx → EReal :=
  Ideal.hostScatterAdd scatN (fun _ => 0) colS (fun _ => 1)
/-- deg^(-1/2). -/
def dinv (colS : IVec SE1 32) : SN.Idx → EReal := fun n => Ideal.rsqrt (deg colS n)
/-- The same as a column. -/
def dcol (colS : IVec SE1 32) : SN1.Idx → EReal := fun p => dinv colS (ix1 (p 0))

/-- Sum over a node's in-edges of the rows the edges gather: entry (n, f) is the sum over edges e landing at n of
    `H (source e, f)`. -/
def aggregate (colS rowI : IVec SE1 32) (H : SNC.Idx → EReal) : SNC.Idx → EReal :=
  Ideal.hostScatterAdd scatNC (fun _ => 0) colS (Host.gather gathNC H rowI)

/-- Dense product X · W at an entry. -/
def dense (X : SNC.Idx → EReal) (W : SCC.Idx → EReal) : SNC.Idx → EReal :=
  fun i => ∑ k : Fin 128, X (ix2 (i 0) k) * W (ix2 k (i 1))

/-! ## The three fused stages of the arrangement scaled at the nodes (each a function of whole arrays) -/

/-- (X · W) scaled by the column D at the row's node. -/
def stage0 (X : SNC.Idx → EReal) (W : SCC.Idx → EReal) (D : SN1.Idx → EReal) : SNC.Idx → EReal :=
  fun i => (∑ k : Fin 128, X (ix2 (i 0) k) * W (ix2 k (i 1))) * D (ix2 (i 0) 0)

/-- D · (max(D · A + b, 0) · W). -/
def stage1 (A : SNC.Idx → EReal) (D : SN1.Idx → EReal) (B : S1C.Idx → EReal) (W : SCC.Idx → EReal) : SNC.Idx → EReal :=
  fun i => D (ix2 (i 0) 0) * ∑ k : Fin 128, max (D (ix2 (i 0) 0) * A (ix2 (i 0) k) + B (ix2 0 k)) 0 * W (ix2 k (i 1))

/-- logistic((D · A + b) · Wc + bc). -/
def stage2 (A : SNC.Idx → EReal) (D : SN1.Idx → EReal) (B : S1C.Idx → EReal) (Wc : SC1.Idx → EReal) (Bc : S11.Idx → EReal) :
    SN1.Idx → EReal :=
  fun i => Ideal.logistic ((∑ k : Fin 128, (D (ix2 (i 0) 0) * A (ix2 (i 0) k) + B (ix2 0 k)) * Wc (ix2 k 0)) + Bc (ix2 0 0))

/-- The arrangement scaled at the nodes. -/
def nodeScaled (colS rowI : IVec SE1 32) (X : SNC.Idx → EReal) (W1 : SCC.Idx → EReal) (b1 : SC.Idx → EReal)
    (W2 : SCC.Idx → EReal) (b2 : SC.Idx → EReal) (Wc : SC1.Idx → EReal) (bc : S1'.Idx → EReal) : SN.Idx → EReal :=
  fun n => stage2 (aggregate colS rowI (stage1 (aggregate colS rowI (stage0 X W1 (dcol colS))) (dcol colS)
      (fun p => b1 (ix1 (p 1))) W2)) (dcol colS) (fun p => b2 (ix1 (p 1))) Wc (fun _ => bc (ix1 0)) (ix2 (n 0) 0)

/-! ## The arrangement scaled at the edges -/

/-- The weight of edge e: d(source e) · d(target e), both read by gathers. -/
def norm (colS rowI colI : IVec SE1 32) : SE.Idx → EReal :=
  fun e => Host.gather gathN (dinv colS) rowI e * Host.gather gathN (dinv colS) colI e

/-- One propagation: the sum over a node's in-edges of weight · gathered row, plus the bias. -/
def conv (colS rowI colI : IVec SE1 32) (H : SNC.Idx → EReal) (b : SC.Idx → EReal) : SNC.Idx → EReal :=
  fun i => Ideal.hostScatterAdd scatNC (fun _ => 0) colS
      (fun j => norm colS rowI colI (ix1 (j 0)) * Host.gather gathNC H rowI j) i + b (ix1 (i 1))

/-- The arrangement scaled at the edges. -/
def edgeScaled (colS rowI colI : IVec SE1 32) (X : SNC.Idx → EReal) (W1 : SCC.Idx → EReal) (b1 : SC.Idx → EReal)
    (W2 : SCC.Idx → EReal) (b2 : SC.Idx → EReal) (Wc : SC1.Idx → EReal) (bc : S1'.Idx → EReal) : SN.Idx → EReal :=
  fun n =>
    Ideal.div 1 (1 + Ideal.exp (-((∑ k : Fin 128,
      conv colS rowI colI (dense (fun i => max (conv colS rowI colI (dense X W1) b1 i) 0) W2) b2 (ix2 (n 0) k) * Wc (ix2 k 0))
        + bc (ix1 0))))

/-- What the two arrangements need of the index arrays: a target that is not negative is gathered where it is
    scattered, and the self-loop of node n is edge 1600000 + n with target n. -/
structure EdgeFacts (colS colI : IVec SE1 32) : Prop where
  same : ∀ e : Fin 1700000, 0 ≤ (colS (ix2 e 0)).toInt → colI (ix2 e 0) = colS (ix2 e 0)
  loop : ∀ n : Fin 100000, colS (ix2 ⟨1600000 + n.val, by omega⟩ 0) = BitVec.ofNat 32 n.val

end Cert.Gcn

end
-- ==== Proof.Edges.lean ====
/-
  The edge lists the graph convolution indexes with, as functions of the [2, 1600000] edge array E: the sources
  `E[0]` and the targets `E[1]`, each followed by the 100000 self-loops n ↦ n; a gather reads an index array after
  wrapping a negative index once (i < 0 ↦ i + 100000), a scatter reads the targets as they are.
-/
import proofs.«157852_j45268955300496_2_alg».proof.Proof.Spec
import Idealize.ShloMosaic.PureOps

noncomputable section

namespace Cert.Gcn

open Idealize.ShloMosaic Idealize.ShloMosaic.ValueIdx

abbrev SE2 : Shape := ⟨2, ![2, 1600000]⟩
abbrev S1E : Shape := ⟨2, ![1, 1600000]⟩
abbrev SEe : Shape := ⟨1, ![1600000]⟩
abbrev S0 : Shape := ⟨0, ![]⟩

theorem joins : Shape.Concatenates [SEe, SN] SE 0 := by decide

/-- Row 0 of the edge array (the sources) followed by the self-loops. -/
def sources (E : IVec SE2 32) : IVec SE 32 :=
  concatenate SE 0 [⟨SEe, shapeCast SEe (extractStridedSlice S1E ![0, 0] E (by decide)) (by decide)⟩,
      ⟨SN, iotaInDim SN 32 0⟩] joins
/-- Row 1 of the edge array (the targets) followed by the self-loops. -/
def targets (E : IVec SE2 32) : IVec SE 32 :=
  concatenate SE 0 [⟨SEe, shapeCast SEe (extractStridedSlice S1E ![1, 0] E (by decide)) (by decide)⟩,
      ⟨SN, iotaInDim SN 32 0⟩] joins

/-- A negative index wrapped once. -/
def wrap (v : IVec SE 32) : IVec SE 32 :=
  select (cmpi .slt v (broadcastInDim SE ![] (by decide) (constantI S0 32 0#32)))
    (addi v (broadcastInDim SE ![] (by decide) (constantI S0 32 100000#32))) v

/-- An index list as the [1700000, 1] array of one-component index vectors. -/
def asColumn (v : IVec SE 32) : IVec SE1 32 := broadcastInDim SE1 ![0] (by decide) v

/-- The targets as a scatter reads them. -/
def colS (E : IVec SE2 32) : IVec SE1 32 := asColumn (targets E)
/-- The sources as a gather reads them. -/
def rowI (E : IVec SE2 32) : IVec SE1 32 := asColumn (wrap (sources E))
/-- The targets as a gather reads them. -/
def colI (E : IVec SE2 32) : IVec SE1 32 := asColumn (wrap (targets E))

end Cert.Gcn

end
-- ==== Proof.Consts.lean ====
/-
  The two float literals the programs spell, as the extended reals their bit patterns denote: 0x00000000 is 0 and
  0x3F800000 is 1.
-/
import Idealize.ShloMosaic.PureOps.Ideal

noncomputable section

namespace Cert.Gcn.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

end Cert.Gcn.Consts

end
-- ==== Proof.Stage0.lean ====
/-
  Region 0 of the kernel, read as one function of the arrays it finds: every entry (n, f) of its output is
  (∑ k, X (n, k) · W (k, f)) · D (n, 0), the dense product scaled by the column at the row's node.
  The body's payload is read at an index (the product into the zero accumulator as a sum over the 128 contracted
  positions, the column broadcast along the features); each input block is rows 5000 t … 5000 t + 4999 of its array
  (the weights' block is the whole array); the 20 output blocks tile the 100000 rows.
-/
import proofs.«157852_j45268955300496_2_alg».proof.Proof.Gen.KernelIdeal.Frame
import proofs.«157852_j45268955300496_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat Cfg Window)

namespace Cert.KernelIdeal.Stage0
open Cert.KernelIdeal Cert.KernelIdeal.Gen

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem rhs_0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem rhs_1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero accumulator, at (p, q): the sum over the 128 contracted positions. -/
theorem matmul_apply (l : FVec Ideal S5000x128 .f32) (r : FVec Ideal S128x128 .f32) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's payload at (p, q): the product's entry scaled by the column's entry of row p. -/
theorem pay_apply (x0 : Vec Ideal S5000x128 .f32) (x1 : Vec Ideal S128x128 .f32) (x3 : Vec Ideal S5000x1 .f32) (p : Fin 5000) (q : Fin 128) :
    k0_pay1 (F := Ideal) x0 x1 x3 (ix2 p q) = (∑ k : Fin 128, x0 (ix2 p k) * x1 (ix2 k q)) * x3 (ix2 p (0 : Fin 1)) := by
  unfold k0_pay1
  refine (mulf_apply _ _ _).trans ?_
  refine congrArg₂ (· * ·) (matmul_apply x0 x1 p q) ?_
  refine (broadcastTo_a1_ab_apply _ broadcasts_S5000x1_S5000x128 p q).trans ?_
  rw [shapeCast_self]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's payload at an index of the block. -/
theorem pay_at (x0 : Vec Ideal S5000x128 .f32) (x1 : Vec Ideal S128x128 .f32) (x3 : Vec Ideal S5000x1 .f32) (y : S5000x128.Idx) :
    k0_pay1 (F := Ideal) x0 x1 x3 y = (∑ k : Fin 128, x0 (ix2 (y 0) k) * x1 (ix2 k (y 1))) * x3 (ix2 (y 0) (0 : Fin 1)) := by
  obtain ⟨p, q, rfl⟩ : ∃ (p : Fin 5000) (q : Fin 128), y = ix2 p q := ⟨y 0, y 1, eq_ix2 y⟩
  exact pay_apply x0 x1 x3 p q

/-- The features' block at point t is rows 5000 t … 5000 t + 4999 of the array. -/
theorem iblk_feat (c : Dev nD) (t : Fin cfg0.N) (x : S5000x128.Idx) (i : S100000x128.Idx)
    (h0 : (i 0).val = t.val * 5000 + (x 0).val) (h1 : (i 1).val = (x 1).val) :
    (iblk0 V c 0 t : Vec Ideal S5000x128 .f32) x = (V c main_arg0 : S100000x128.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- The weights' block at every point is the whole array. -/
theorem iblk_wt (c : Dev nD) (t : Fin cfg0.N) (x : S128x128.Idx) :
    (iblk0 V c 1 t : Vec Ideal S128x128 .f32) x = (V c main_arg2 : S128x128.Idx → Elt Ideal .f32) x := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- The scaling column's block at point t is rows 5000 t … 5000 t + 4999 of the column. -/
theorem iblk_col (c : Dev nD) (t : Fin cfg0.N) (x : S5000x1.Idx) (i : S100000x1.Idx)
    (h0 : (i 0).val = t.val * 5000 + (x 0).val) (h1 : (i 1).val = (x 1).val) :
    (iblk0 V c 2 t : Vec Ideal S5000x1 .f32) x = (V c main_v12 : S100000x1.Idx → Elt Ideal .f32) i := by
  obtain ⟨-, -, -, -, e4, e5, -⟩ := idx_facts t
  unfold iblk0
  rw [View.read_apply]
  show V c main_v12 _ = V c main_v12 _
  congr 1
  funext a
  apply Fin.ext
  match a with
  | ⟨0, _⟩ => show win0_2.index t 0 * 5000 + 1 * (x 0).val = (i 0).val; rw [e4, h0]; omega
  | ⟨1, _⟩ => show win0_2.index t 1 * 1 + 1 * (x 1).val = (i 1).val; rw [e5, h1]; omega

/-- What point t writes back is block t of the closed form of the arrays as the region finds them. -/
theorem flushed_eq (c : Dev nD) (t : Fin cfg0.N) :
    (dat0 (F := Ideal) V c).flushed 3 t = ((cfg0.win 3).blk t).view.read (Elt Ideal) (Cert.Gcn.stage0 (V c main_arg0) (V c main_arg2) (V c main_v12)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e6, e7⟩ := idx_facts t
  funext y
  revert y
  show ∀ y : S5000x128.Idx, k0_pay1 (F := Ideal) (iblk0 V c 0 t) (iblk0 V c 1 t) (iblk0 V c 2 t) y
      = Cert.Gcn.stage0 (V c main_arg0) (V c main_arg2) (V c main_v12) (((cfg0.win 3).blk t).view.emb y)
  intro y
  have hi0 : ((((cfg0.win 3).blk t).view.emb y : S100000x128.Idx) 0).val = t.val * 5000 + (y 0).val := by
    show win0_3.index t 0 * 5000 + 1 * (y 0).val = _
    rw [e6]; omega
  have hi1 : ((((cfg0.win 3).blk t).view.emb y : S100000x128.Idx) 1).val = (y 1).val := by
    show win0_3.index t 1 * 128 + 1 * (y 1).val = _
    rw [e7]; omega
  refine (pay_at _ _ _ y).trans ?_
  unfold Cert.Gcn.stage0
  refine congrArg₂ (· * ·) (Finset.sum_congr rfl fun k _ => congrArg₂ (· * ·) ?_ ?_) ?_
  · exact iblk_feat V c t (ix2 (y 0) k) _ hi0 rfl
  · exact (iblk_wt V c t (ix2 k (y 1))).trans (congrArg (V c main_arg2) (funext fun a => Fin.ext (by
      match a with
      | ⟨0, _⟩ => rfl
      | ⟨1, _⟩ => exact hi1.symm)))
  · exact iblk_col V c t (ix2 (y 0) (0 : Fin 1)) _ hi0 rfl

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Row r of the array is in the block of point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t 0 * 5000 ≤ (i 0).val ∧ (i 0).val < win0_3.index t 0 * 5000 + 5000
    rw [e6, ht]; omega
  | ⟨1, _⟩ =>
    show win0_3.index t 1 * 128 ≤ (i 1).val ∧ (i 1).val < win0_3.index t 1 * 128 + 128
    rw [e7]; omega

/-- The region's output array ends holding the closed form of the arrays the region found. -/
theorem final (c : Dev nD) :
    (dat0 (F := Ideal) V c).arrAt 3 cfg0.N = Cert.Gcn.stage0 (V c main_arg0) (V c main_arg2) (V c main_v12) :=
  (dat0 (F := Ideal) V c).arrAt_eq_of_cover 3 (Cert.Gcn.stage0 (V c main_arg0) (V c main_arg2) (V c main_v12))
    (fun t _ => flushed_eq V c t) cover

end Cert.KernelIdeal.Stage0

end
-- ==== Proof.Stage1.lean ====
/-
  Region 1 of the kernel's value. Over row blocks of 5000 rows, the body multiplies the block of A by the column D row by
  row, adds the bias row b, takes the maximum with 0, contracts with the whole weight W over the 128 features, and
  multiplies by the column D again: the output array ends holding D · (max(D · A + b, 0) · W), entry by entry
  (Cert.Gcn.stage1). The body's payload read at an entry (pay_apply); each window's block as entries of its array
  (blkA_apply … blkW_apply); what a point writes back (flushed_eq); every row r is in the block of point r / 5000 (cover);
  the array after the region (final).
-/
import proofs.«157852_j45268955300496_2_alg».proof.Proof.Gen.KernelIdeal.Frame
import proofs.«157852_j45268955300496_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat Cfg Window)
open scoped BigOperators

namespace Cert.KernelIdeal.Stage1
open Cert.KernelIdeal Cert.KernelIdeal.Gen

/-- A [a,1] column broadcast to [a,b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

local notation "dotD" => dot_S5000x128_S128x128_S5000x128_1_0_0_1_n_n

theorem lhs_0 (i : S5000x128.Idx) (q : (dotD).contr.Idx) : ((dotD).lhsIdx i q 0).val = (i 0).val := by
  unfold DotDims.lhsIdx
  rw [dif_neg (show ¬(0 : Fin S5000x128.rank) ∈ (dotD).lhsBatch by decide), dif_pos (show (0 : Fin S5000x128.rank) ∈ (dotD).lhsNonContracting by decide)]
  rfl
theorem lhs_1 (i : S5000x128.Idx) (q : (dotD).contr.Idx) : ((dotD).lhsIdx i q 1).val = (q ⟨0, by decide⟩).val :=
  (dotD).lhsIdx_val_of_single rfl i q
theorem rhs_0 (i : S5000x128.Idx) (q : (dotD).contr.Idx) : ((dotD).rhsIdx i q 0).val = (q ⟨0, by decide⟩).val :=
  (dotD).rhsIdx_val_of_single rfl i q
theorem rhs_1 (i : S5000x128.Idx) (q : (dotD).contr.Idx) : ((dotD).rhsIdx i q 1).val = (i 1).val := by
  unfold DotDims.rhsIdx
  rw [dif_neg (show ¬(1 : Fin S128x128.rank) ∈ (dotD).rhsBatch by decide), dif_pos (show (1 : Fin S128x128.rank) ∈ (dotD).rhsNonContracting by decide)]
  rfl

/-- The matmul into the zero accumulator at (p, q): the sum over the contracted axis. -/
theorem matmul_apply (l : FVec Ideal S5000x128 .f32) (r : FVec Ideal S128x128 .f32) (p : Fin 5000) (q : Fin 128) :
    matmul (F := Ideal) dotD none l r (constant (F := Ideal) S5000x128 .f32 0x00000000#32) (ix2 p q)
      = ∑ k : Fin 128, l (ix2 p k) * r (ix2 k q) := by
  refine (Ideal.matmul_constant_zero_apply dotD none l r (ix2 p q)).trans ?_
  rw [← Equiv.sum_comp (ValueIdx.contrEquiv1 dotD 128 rfl rfl).symm]
  refine Finset.sum_congr rfl fun k _ => ?_
  have hk := ValueIdx.contrEquiv1_symm_val dotD 128 rfl rfl k
  have el : (dotD).lhsIdx (ix2 p q) ((ValueIdx.contrEquiv1 dotD 128 rfl rfl).symm k) = ix2 p k := funext fun a => Fin.ext (by
    match a with
    | ⟨0, _⟩ => exact lhs_0 _ _
    | ⟨1, _⟩ => exact (lhs_1 _ _).trans hk)
  have er : (dotD).rhsIdx (ix2 p q) ((ValueIdx.contrEquiv1 dotD 128 rfl rfl).symm k) = ix2 k q := funext fun a => Fin.ext (by
    match a with
    | ⟨0, _⟩ => exact (rhs_0 _ _).trans hk
    | ⟨1, _⟩ => exact rhs_1 _ _)
  rw [el, er]

/-- The body's payload at (p, q). -/
theorem pay_apply (d : Vec Ideal S5000x1 .f32) (a : Vec Ideal S5000x128 .f32) (b : Vec Ideal S1x128 .f32)
    (w : Vec Ideal S128x128 .f32) (d' : Vec Ideal S5000x1 .f32) (p : Fin 5000) (q : Fin 128) :
    k1_pay1 (F := Ideal) d a b w d' (ix2 p q)
      = d' (ix2 p 0) * ∑ k : Fin 128, max (d (ix2 p 0) * a (ix2 p k) + b (ix2 0 k)) 0 * w (ix2 k q) := by
  unfold k1_pay1
  simp only [shapeCast_self]
  refine (mulf_apply _ _ _).trans ?_
  rw [broadcastTo_a1_ab_apply, matmul_apply]
  refine congrArg _ (Finset.sum_congr rfl fun k _ => ?_)
  refine congrArg (· * w (ix2 k q)) ?_
  refine (maximumf_apply _ _ _).trans ?_
  rw [broadcast_apply, addf_apply, mulf_apply, broadcastTo_a1_ab_apply, broadcastTo_1b_ab_apply]
  exact congrArg _ Ideal.ofBits_zero_f32

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows (A, D, the output) are at block (t, 0), the bias row and the
    weight at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of A is rows 5000 t … 5000 t + 4999. -/
theorem blkA_apply (c : Dev nD) (t : Fin cfg1.N) (x : S5000x128.Idx) (i : S100000x128.Idx)
    (h0 : (i 0).val = t.val * 5000 + (x 0).val) (h1 : (i 1).val = (x 1).val) :
    (iblk1 V c 0 t : Vec Ideal S5000x128 .f32) x = (V c main_v23 : S100000x128.Idx → EReal) i := by
  obtain ⟨e0, e1, -⟩ := idx_facts t
  unfold iblk1
  rw [View.read_apply]
  show V c main_v23 _ = V c main_v23 _
  congr 1
  funext a
  apply Fin.ext
  match a with
  | ⟨0, _⟩ => show win1_0.index t (0 : Fin 2) * 5000 + 1 * (x 0).val = (i 0).val; omega
  | ⟨1, _⟩ => show win1_0.index t (1 : Fin 2) * 128 + 1 * (x 1).val = (i 1).val; omega

/-- Block t of the column D is rows 5000 t … 5000 t + 4999. -/
theorem blkD_apply (c : Dev nD) (t : Fin cfg1.N) (x : S5000x1.Idx) (i : S100000x1.Idx)
    (h0 : (i 0).val = t.val * 5000 + (x 0).val) :
    (iblk1 V c 1 t : Vec Ideal S5000x1 .f32) x = (V c main_v12 : S100000x1.Idx → EReal) i := by
  obtain ⟨-, -, e0, e1, -⟩ := idx_facts t
  unfold iblk1
  rw [View.read_apply]
  show V c main_v12 _ = V c main_v12 _
  congr 1
  funext a
  apply Fin.ext
  match a with
  | ⟨0, _⟩ => show win1_1.index t (0 : Fin 2) * 5000 + 1 * (x 0).val = (i 0).val; omega
  | ⟨1, _⟩ => show win1_1.index t (1 : Fin 2) * 1 + 1 * (x 1).val = (i 1).val; have hx : (x 1).val < 1 := (x 1).isLt; have hi : (i 1).val < 1 := (i 1).isLt; omega

/-- The bias row's one block is the row. -/
theorem blkB_apply (c : Dev nD) (t : Fin cfg1.N) (x : S1x128.Idx) :
    (iblk1 V c 2 t : Vec Ideal S1x128 .f32) x = (V c main_v24 : S1x128.Idx → EReal) x := by
  obtain ⟨-, -, -, -, e0, e1, -⟩ := idx_facts t
  unfold iblk1
  rw [View.read_apply]
  show V c main_v24 _ = V c main_v24 _
  congr 1
  funext a
  apply Fin.ext
  match a with
  | ⟨0, _⟩ => show win1_2.index t (0 : Fin 2) * 1 + 1 * (x 0).val = (x 0).val; omega
  | ⟨1, _⟩ => show win1_2.index t (1 : Fin 2) * 128 + 1 * (x 1).val = (x 1).val; omega

/-- The weight's one block is the weight. -/
theorem blkW_apply (c : Dev nD) (t : Fin cfg1.N) (x : S128x128.Idx) :
    (iblk1 V c 3 t : Vec Ideal S128x128 .f32) x = (V c main_arg4 : S128x128.Idx → EReal) x := by
  obtain ⟨-, -, -, -, -, -, e0, e1, -⟩ := idx_facts t
  unfold iblk1
  rw [View.read_apply]
  show V c main_arg4 _ = V c main_arg4 _
  congr 1
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- The body's payload of the blocks at point t, at y, is the closed form at row 5000 t + y 0, column y 1. -/
theorem point_eq (c : Dev nD) (t : Fin cfg1.N) (y : S5000x128.Idx) (i : S100000x128.Idx)
    (h0 : (i 0).val = t.val * 5000 + (y 0).val) (h1 : (i 1).val = (y 1).val) :
    k1_pay1 (F := Ideal) (iblk1 V c 1 t) (iblk1 V c 0 t) (iblk1 V c 2 t) (iblk1 V c 3 t) (iblk1 V c 1 t) y
      = Cert.Gcn.stage1 (V c main_v23) (V c main_v12) (V c main_v24) (V c main_arg4) i := by
  refine (congrArg _ (eq_ix2 y)).trans ?_
  refine (pay_apply _ _ _ _ _ (y 0) (y 1)).trans ?_
  unfold Cert.Gcn.stage1
  have hD : (iblk1 V c 1 t : Vec Ideal S5000x1 .f32) (ix2 (y 0) 0) = (V c main_v12 : S100000x1.Idx → EReal) (ix2 (i 0) 0) :=
    blkD_apply V c t _ _ h0
  refine congrArg₂ (· * ·) hD (Finset.sum_congr rfl fun k _ => ?_)
  refine congrArg₂ (· * ·) (congrArg₂ max (congrArg₂ (· + ·) (congrArg₂ (· * ·) hD ?_) ?_) rfl) ?_
  · exact blkA_apply V c t _ _ h0 rfl
  · exact blkB_apply V c t _
  · exact (blkW_apply V c t _).trans (congrArg _ (funext fun a => Fin.ext (by
      match a with
      | ⟨0, _⟩ => rfl
      | ⟨1, _⟩ => exact h1.symm)))

/-- What point t writes back is block t of the closed form. -/
theorem flushed_eq (c : Dev nD) (t : Fin cfg1.N) :
    (dat1 (F := Ideal) V c).flushed 4 t = ((cfg1.win 4).blk t).view.read (Elt Ideal)
      (Cert.Gcn.stage1 (V c main_v23) (V c main_v12) (V c main_v24) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S1x128) hz, View.ld_unit_zero (S := S128x128) hz]
  obtain ⟨-, -, -, -, -, -, -, -, e0, e1⟩ := idx_facts t
  refine funext fun (y : S5000x128.Idx) => ?_
  refine point_eq V c t y _ ?_ ?_
  · show win1_4.index t (0 : Fin 2) * 5000 + 1 * (y 0).val = _; omega
  · show win1_4.index t (1 : Fin 2) * 128 + 1 * (y 1).val = _; omega

/-- An index of the array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v25).slice (win1_4.rect t)).set ↔ _
  rw [View.set_slice_whole, Rect.mem_set_unit]
  exact Iff.rfl

/-- Row r is in the block of point r / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, -, -, -, -, e0, e1⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: D · (max(D · A + b, 0) · W). -/
theorem final (c : Dev nD) :
    (dat1 (F := Ideal) V c).arrAt 4 cfg1.N = Cert.Gcn.stage1 (V c main_v23) (V c main_v12) (V c main_v24) (V c main_arg4) :=
  (dat1 (F := Ideal) V c).arrAt_eq_of_cover 4 (Cert.Gcn.stage1 (V c main_v23) (V c main_v12) (V c main_v24) (V c main_arg4))
    (fun t _ => flushed_eq V c t) cover

end Cert.KernelIdeal.Stage1

end
-- ==== Proof.Stage2.lean ====
/-
  Region 2 of the kernel, read as one function of the arrays it finds: entry (n, 0) of its output is
  logistic((∑ k, (D (n, 0) · A (n, k) + B (0, k)) · Wc (k, 0)) + Bc (0, 0)).
  The body's payload is read at an index (the scaling column and the bias row broadcast over the [5000, 128] block,
  the product with the [128, 1] weight column into the zero accumulator as a sum over the 128 contracted positions,
  the one-entry bias broadcast down the rows, the logistic entry by entry); the aggregated rows' and the scaling
  column's blocks are rows 5000 t … 5000 t + 4999 of their arrays, the other three blocks are whole arrays; the 20
  output blocks tile the 100000 rows.
-/
import proofs.«157852_j45268955300496_2_alg».proof.Proof.Gen.KernelIdeal.Frame
import proofs.«157852_j45268955300496_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat Cfg Window)

namespace Cert.KernelIdeal.Stage2
open Cert.KernelIdeal Cert.KernelIdeal.Gen

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_0 (i : S5000x1.Idx) (c : dot_S5000x128_S128x1_S5000x1_1_0_0_1_n_n.contr.Idx) : (dot_S5000x128_S128x1_S5000x1_1_0_0_1_n_n.lhsIdx i c 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_1 (i : S5000x1.Idx) (c : dot_S5000x128_S128x1_S5000x1_1_0_0_1_n_n.contr.Idx) : (dot_S5000x128_S128x1_S5000x1_1_0_0_1_n_n.lhsIdx i c 1).val = (c ⟨0, by decide⟩).val :=
  dot_S5000x128_S128x1_S5000x1_1_0_0_1_n_n.lhsIdx_val_of_single rfl i c
theorem rhs_0 (i : S5000x1.Idx) (c : dot_S5000x128_S128x1_S5000x1_1_0_0_1_n_n.contr.Idx) : (dot_S5000x128_S128x1_S5000x1_1_0_0_1_n_n.rhsIdx i c 0).val = (c ⟨0, by decide⟩).val :=
  dot_S5000x128_S128x1_S5000x1_1_0_0_1_n_n.rhsIdx_val_of_single rfl i c
theorem rhs_1 (i : S5000x1.Idx) (c : dot_S5000x128_S128x1_S5000x1_1_0_0_1_n_n.contr.Idx) : (dot_S5000x128_S128x1_S5000x1_1_0_0_1_n_n.rhsIdx i c 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The matrix product into the zero accumulator, at (p, q): the sum over the 128 contracted positions. -/
theorem matmul_apply (l : FVec Ideal S5000x128 .f32) (r : FVec Ideal S128x1 .f32) (p : Fin 5000) (q : Fin 1) :
    matmul (F := Ideal) dot_S5000x128_S128x1_S5000x1_1_0_0_1_n_n none l r (constant (F := Ideal) S5000x1 .f32 0x00000000#32) (ix2 p q)
      = ∑ k : Fin 128, l (ix2 p k) * r (ix2 k q) := by
  refine (Ideal.matmul_constant_zero_apply dot_S5000x128_S128x1_S5000x1_1_0_0_1_n_n none l r (ix2 p q)).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p q) ((ValueIdx.contrEquiv1 dot_S5000x128_S128x1_S5000x1_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x1_S5000x1_1_0_0_1_n_n.rhsIdx (ix2 p q) ((ValueIdx.contrEquiv1 dot_S5000x128_S128x1_S5000x1_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's payload at (p, q): the logistic of the row's product with the weight column plus the bias, the
    row being the scaling column's entry of row p times the aggregated row, plus the bias row. -/
theorem pay_apply (x0 : Vec Ideal S5000x1 .f32) (x2 : Vec Ideal S5000x128 .f32) (x6 : Vec Ideal S1x128 .f32)
    (x10 : Vec Ideal S128x1 .f32) (x12 : Vec Ideal S1x1 .f32) (p : Fin 5000) (q : Fin 1) :
    k2_pay1 (F := Ideal) x0 x2 x6 x10 x12 (ix2 p q)
      = Ideal.logistic ((∑ k : Fin 128, (x0 (ix2 p (0 : Fin 1)) * x2 (ix2 p k) + x6 (ix2 (0 : Fin 1) k)) * x10 (ix2 k q))
          + x12 (ix2 (0 : Fin 1) q)) := by
  unfold k2_pay1
  show Ideal.logistic (_ + _) = _
  refine congrArg Ideal.logistic (congrArg₂ (· + ·) ?_ ?_)
  · refine (matmul_apply _ x10 p q).trans (Finset.sum_congr rfl fun k _ => congrArg₂ (· * ·) ?_ rfl)
    refine (addf_apply _ _ _).trans (congrArg₂ (· + ·) ((mulf_apply _ _ _).trans (congrArg₂ (· * ·) ?_ ?_)) ?_)
    · refine (broadcastTo_a1_ab_apply _ broadcasts_S5000x1_S5000x128 p k).trans ?_
      rw [shapeCast_self]
    · rw [shapeCast_self]
    · refine (broadcastTo_1b_ab_apply _ broadcasts_S1x128_S5000x128 p k).trans ?_
      rw [shapeCast_self]
  · refine (broadcastTo_1b_ab_apply _ broadcasts_S1x1_S5000x1 p q).trans ?_
    rw [shapeCast_self]

/-- The body's payload at an index of the block. -/
theorem pay_at (x0 : Vec Ideal S5000x1 .f32) (x2 : Vec Ideal S5000x128 .f32) (x6 : Vec Ideal S1x128 .f32)
    (x10 : Vec Ideal S128x1 .f32) (x12 : Vec Ideal S1x1 .f32) (y : S5000x1.Idx) :
    k2_pay1 (F := Ideal) x0 x2 x6 x10 x12 y
      = Ideal.logistic ((∑ k : Fin 128, (x0 (ix2 (y 0) (0 : Fin 1)) * x2 (ix2 (y 0) k) + x6 (ix2 (0 : Fin 1) k)) * x10 (ix2 k (y 1)))
          + x12 (ix2 (0 : Fin 1) (y 1))) := by
  obtain ⟨p, q, rfl⟩ : ∃ (p : Fin 5000) (q : Fin 1), y = ix2 p q := ⟨y 0, y 1, eq_ix2 y⟩
  exact pay_apply x0 x2 x6 x10 x12 p q

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the bias row, the weight column and
    the bias at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregated rows' block at point t is rows 5000 t … 5000 t + 4999 of the array. -/
theorem iblk_agg (c : Dev nD) (t : Fin cfg2.N) (x : S5000x128.Idx) (i : S100000x128.Idx)
    (h0 : (i 0).val = t.val * 5000 + (x 0).val) (h1 : (i 1).val = (x 1).val) :
    (iblk2 V c 0 t : Vec Ideal S5000x128 .f32) x = (V c main_v35 : S100000x128.Idx → Elt Ideal .f32) i := by
  obtain ⟨ea, eb, -, -, -, -, -, -, -, -, -, -⟩ := idx_facts t
  unfold iblk2
  rw [View.read_apply]
  show V c main_v35 _ = V c main_v35 _
  congr 1
  funext a
  apply Fin.ext
  match a with
  | ⟨0, _⟩ => show win2_0.index t 0 * 5000 + 1 * (x 0).val = (i 0).val; rw [ea, h0]; omega
  | ⟨1, _⟩ => show win2_0.index t 1 * 128 + 1 * (x 1).val = (i 1).val; rw [eb, h1]; omega

/-- The scaling column's block at point t is rows 5000 t … 5000 t + 4999 of the column. -/
theorem iblk_col (c : Dev nD) (t : Fin cfg2.N) (x : S5000x1.Idx) (i : S100000x1.Idx)
    (h0 : (i 0).val = t.val * 5000 + (x 0).val) (h1 : (i 1).val = (x 1).val) :
    (iblk2 V c 1 t : Vec Ideal S5000x1 .f32) x = (V c main_v12 : S100000x1.Idx → Elt Ideal .f32) i := by
  obtain ⟨-, -, ea, eb, -, -, -, -, -, -, -, -⟩ := idx_facts t
  unfold iblk2
  rw [View.read_apply]
  show V c main_v12 _ = V c main_v12 _
  congr 1
  funext a
  apply Fin.ext
  match a with
  | ⟨0, _⟩ => show win2_1.index t 0 * 5000 + 1 * (x 0).val = (i 0).val; rw [ea, h0]; omega
  | ⟨1, _⟩ => show win2_1.index t 1 * 1 + 1 * (x 1).val = (i 1).val; rw [eb, h1]; omega

/-- The bias row's block at every point is the whole row. -/
theorem iblk_bias (c : Dev nD) (t : Fin cfg2.N) (x : S1x128.Idx) (i : S1x128.Idx)
    (h0 : (i 0).val = (x 0).val) (h1 : (i 1).val = (x 1).val) :
    (iblk2 V c 2 t : Vec Ideal S1x128 .f32) x = (V c main_v36 : S1x128.Idx → Elt Ideal .f32) i := by
  obtain ⟨-, -, -, -, ea, eb, -, -, -, -, -, -⟩ := idx_facts t
  unfold iblk2
  rw [View.read_apply]
  show V c main_v36 _ = V c main_v36 _
  congr 1
  funext a
  apply Fin.ext
  match a with
  | ⟨0, _⟩ => show win2_2.index t 0 * 1 + 1 * (x 0).val = (i 0).val; rw [ea, h0]; omega
  | ⟨1, _⟩ => show win2_2.index t 1 * 128 + 1 * (x 1).val = (i 1).val; rw [eb, h1]; omega

/-- The weight column's block at every point is the whole column. -/
theorem iblk_wt (c : Dev nD) (t : Fin cfg2.N) (x : S128x1.Idx) (i : S128x1.Idx)
    (h0 : (i 0).val = (x 0).val) (h1 : (i 1).val = (x 1).val) :
    (iblk2 V c 3 t : Vec Ideal S128x1 .f32) x = (V c main_arg6 : S128x1.Idx → Elt Ideal .f32) i := by
  obtain ⟨-, -, -, -, -, -, ea, eb, -, -, -, -⟩ := idx_facts t
  unfold iblk2
  rw [View.read_apply]
  show V c main_arg6 _ = V c main_arg6 _
  congr 1
  funext a
  apply Fin.ext
  match a with
  | ⟨0, _⟩ => show win2_3.index t 0 * 128 + 1 * (x 0).val = (i 0).val; rw [ea, h0]; omega
  | ⟨1, _⟩ => show win2_3.index t 1 * 1 + 1 * (x 1).val = (i 1).val; rw [eb, h1]; omega

/-- The final bias's block at every point is the whole one-entry array. -/
theorem iblk_b (c : Dev nD) (t : Fin cfg2.N) (x : S1x1.Idx) (i : S1x1.Idx)
    (h0 : (i 0).val = (x 0).val) (h1 : (i 1).val = (x 1).val) :
    (iblk2 V c 4 t : Vec Ideal S1x1 .f32) x = (V c main_v37 : S1x1.Idx → Elt Ideal .f32) i := by
  obtain ⟨-, -, -, -, -, -, -, -, ea, eb, -, -⟩ := idx_facts t
  unfold iblk2
  rw [View.read_apply]
  show V c main_v37 _ = V c main_v37 _
  congr 1
  funext a
  apply Fin.ext
  match a with
  | ⟨0, _⟩ => show win2_4.index t 0 * 1 + 1 * (x 0).val = (i 0).val; rw [ea, h0]; omega
  | ⟨1, _⟩ => show win2_4.index t 1 * 1 + 1 * (x 1).val = (i 1).val; rw [eb, h1]; omega

/-- What point t writes back is block t of the closed form of the arrays as the region finds them. -/
theorem flushed_eq (c : Dev nD) (t : Fin cfg2.N) :
    (dat2 (F := Ideal) V c).flushed 5 t = ((cfg2.win 5).blk t).view.read (Elt Ideal)
      (Cert.Gcn.stage2 (V c main_v35) (V c main_v12) (V c main_v36) (V c main_arg6) (V c main_v37)) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S5000x1) hz, View.ld_unit_zero (S := S1x128) hz,
    View.ld_unit_zero (S := S128x1) hz, View.ld_unit_zero (S := S1x1) hz]
  obtain ⟨-, -, -, -, -, -, -, -, -, -, ea, eb⟩ := idx_facts t
  funext y
  revert y
  show ∀ y : S5000x1.Idx, k2_pay1 (F := Ideal) (iblk2 V c 1 t) (iblk2 V c 0 t) (iblk2 V c 2 t) (iblk2 V c 3 t) (iblk2 V c 4 t) y
      = Cert.Gcn.stage2 (V c main_v35) (V c main_v12) (V c main_v36) (V c main_arg6) (V c main_v37) (((cfg2.win 5).blk t).view.emb y)
  intro y
  have hi0 : ((((cfg2.win 5).blk t).view.emb y : S100000x1.Idx) 0).val = t.val * 5000 + (y 0).val := by
    show win2_5.index t 0 * 5000 + 1 * (y 0).val = _
    rw [ea]; omega
  have hy1 : (0 : Fin 1).val = (y 1).val := by
    have h : (y 1).val < 1 := (y 1).isLt
    show 0 = (y 1).val
    omega
  refine (pay_at _ _ _ _ _ y).trans ?_
  unfold Cert.Gcn.stage2
  refine congrArg Ideal.logistic (congrArg₂ (· + ·) (Finset.sum_congr rfl fun k _ =>
    congrArg₂ (· * ·) (congrArg₂ (· + ·) (congrArg₂ (· * ·) ?_ ?_) ?_) ?_) ?_)
  · exact iblk_col V c t (ix2 (y 0) (0 : Fin 1)) _ hi0 rfl
  · exact iblk_agg V c t (ix2 (y 0) k) _ hi0 rfl
  · exact iblk_bias V c t (ix2 (0 : Fin 1) k) _ rfl rfl
  · exact iblk_wt V c t (ix2 k (y 1)) _ rfl hy1
  · exact iblk_b V c t (ix2 (0 : Fin 1) (y 1)) _ rfl hy1

/-- An index of the array is in point t's block iff each coordinate is in the block's range on its axis. -/
theorem mem_blk (t : Fin cfg2.N) (i : S100000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v38).slice (win2_5.rect t)).set ↔ _
  rw [View.set_slice_whole, Rect.mem_set_unit]
  exact Iff.rfl

/-- Row r of the array is in the block of point r / 5000. -/
theorem cover (i : S100000x1.Idx) :
    ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, ea, eb⟩ := idx_facts t
  refine ⟨t, flush2_5 t, ?_⟩
  rw [mem_blk]
  intro a
  match a with
  | ⟨0, _⟩ =>
    show win2_5.index t 0 * 5000 ≤ (i 0).val ∧ (i 0).val < win2_5.index t 0 * 5000 + 5000
    rw [ea, ht]; omega
  | ⟨1, _⟩ =>
    show win2_5.index t 1 * 1 ≤ (i 1).val ∧ (i 1).val < win2_5.index t 1 * 1 + 1
    rw [eb]; omega

/-- The region's output array ends holding the closed form of the arrays the region found. -/
theorem final (c : Dev nD) :
    (dat2 (F := Ideal) V c).arrAt 5 cfg2.N = Cert.Gcn.stage2 (V c main_v35) (V c main_v12) (V c main_v36) (V c main_arg6) (V c main_v37) :=
  (dat2 (F := Ideal) V c).arrAt_eq_of_cover 5 (Cert.Gcn.stage2 (V c main_v35) (V c main_v12) (V c main_v36) (V c main_arg6) (V c main_v37))
    (fun t _ => flushed_eq V c t) cover

end Cert.KernelIdeal.Stage2

end
-- ==== Proof.KernelValue.lean ====
/-
  The idealized kernel's result array, read off the fold through @main's segments.

  Before the first region the host operations build the edge lists (sources and targets, each followed by the
  self-loops) and the column d = deg^(-1/2), the degrees a scatter-add of ones into zeros. Region 0 leaves
  (X · W1) scaled by d at the row's node; between the regions a gather along the sources and a scatter-add at the
  targets aggregate it; region 1 leaves d · (max(d · agg + b1, 0) · W2); the same aggregation again; region 2 leaves
  logistic((d · agg + b2) · Wc + bc) as a column, which the last reshape reads as a vector. A buffer that no operation of
  a stretch writes, and no region's output window, keeps its contents, so the edge lists, the column d and the argument
  arrays are the same at every boundary. Composed, the result is the arrangement scaled at the nodes.
-/
import proofs.«157852_j45268955300496_2_alg».proof.Proof.Gen.KernelIdeal.Frame
import proofs.«157852_j45268955300496_2_alg».proof.Proof.Spec
import proofs.«157852_j45268955300496_2_alg».proof.Proof.Edges
import proofs.«157852_j45268955300496_2_alg».proof.Proof.Consts
import proofs.«157852_j45268955300496_2_alg».proof.Proof.Stage0
import proofs.«157852_j45268955300496_2_alg».proof.Proof.Stage1
import proofs.«157852_j45268955300496_2_alg».proof.Proof.Stage2
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg) (c : Dev nD)

/-! ## Small facts about the host operations at the ideal instance, over variables -/

theorem rsqrt_at {s : Shape} (Y : s.Idx → EReal) (i : s.Idx) :
    (Host.rsqrt (F := Ideal) (φ := .f32) Y) i = Ideal.rsqrt (Y i) := rfl

theorem scatterAdd_eq {s si su : Shape} (d : ScatterDims s si su) (Z : s.Idx → EReal) (I : IVec si 32) (O : su.Idx → EReal) :
    Host.scatterAdd (F := Ideal) (φ := .f32) d Z I O = Ideal.hostScatterAdd d Z I O := rfl

theorem recN_eq : scatter_S100000_S1700000x1_S1700000_n_0_0_1 = Cert.Gcn.scatN := rfl
theorem recNC_eq : scatter_S100000x128_S1700000x1_S1700000x128_1_0_0_1 = Cert.Gcn.scatNC := rfl
theorem recG_eq : gather_S100000x128_S1700000x1_S1700000x128_1_0_n_n_0_1_1128 = Cert.Gcn.gathNC := rfl

theorem zeros_eq {t : Shape} (h : S_.BroadcastsInDim t (![] : Fin 0 → Fin t.rank)) :
    broadcastInDim t ![] h (constant (F := Ideal) S_ .f32 0x00000000#32) = fun _ => (0 : EReal) := by
  funext i
  exact Cert.Gcn.Consts.ofBits_zero

theorem ones_eq {t : Shape} (h : S_.BroadcastsInDim t (![] : Fin 0 → Fin t.rank)) :
    broadcastInDim t ![] h (constant (F := Ideal) S_ .f32 0x3F800000#32) = fun _ => (1 : EReal) := by
  funext i
  exact Cert.Gcn.Consts.ofBits_one
/-- A buffer no operation of a stretch writes keeps its contents across the stretch. -/
macro "pass_host" : tactic => `(tactic|
  (refine StableHlo.after_of_forall_not_mem _ _ (List.forall_iff_forall_mem.mp ?_)
   simp only [hostOps0, hostOps1, hostOps2, hostOps3, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-! ## Before the first region -/

theorem w1_arg (b : Ref sig .tc) (hb : b = main_arg0 ∨ b = main_arg2 ∨ b = main_arg3 ∨ b = main_arg4 ∨ b = main_arg5 ∨ b = main_arg6 ∨ b = main_arg7) :
    W1 m ρ c (Proc.devRef .tc b) = m ((c : Thread nD τ).loc b) := by
  rcases hb with rfl | rfl | rfl | rfl | rfl | rfl | rfl <;>
  · show StableHlo.after hostOps0 (W0 m ρ c) _ = _
    refine Eq.trans ?_ (rfl : W0 m ρ c _ = _)
    pass_host

theorem w1_v3 : W1 m ρ c (Proc.devRef .tc main_v3) = Cert.Gcn.sources (m ((c : Thread nD τ).loc main_arg1)) := by
  show StableHlo.after hostOps0 (W0 m ρ c) (Proc.devRef .tc main_v3) = _
  after_results
  rfl

theorem w1_v6 : W1 m ρ c (Proc.devRef .tc main_v6) = Cert.Gcn.targets (m ((c : Thread nD τ).loc main_arg1)) := by
  show StableHlo.after hostOps0 (W0 m ρ c) (Proc.devRef .tc main_v6) = _
  after_results
  rfl

theorem w1_v12 : W1 m ρ c (Proc.devRef .tc main_v12) = Cert.Gcn.dcol (Cert.Gcn.colS (m ((c : Thread nD τ).loc main_arg1))) := by
  show StableHlo.after hostOps0 (W0 m ρ c) (Proc.devRef .tc main_v12) = _
  after_results
  generalize hB : (concatenate S1700000 0 _ _ : IVec S1700000 32) = B
  have hT : Cert.Gcn.targets (m ((c : Thread nD τ).loc main_arg1)) = B := by rw [← hB]; rfl
  unfold Cert.Gcn.dcol Cert.Gcn.dinv Cert.Gcn.deg Cert.Gcn.colS Cert.Gcn.asColumn
  rw [hT]
  funext p
  obtain ⟨n, z, rfl⟩ : ∃ (n : Fin 100000) (z : Fin 1), p = ix2 n z := ⟨p 0, p 1, eq_ix2 p⟩
  refine (shapeCast_apply (s := S100000) (t := S100000x1) _ shapeCasts_S100000_S100000x1 (ix2 n z) (ix1 n) ?_).trans ?_
  · rw [Shape.rowMajor_val_one, Shape.rowMajor_val_two]
    show n.val = n.val * 1 + z.val
    omega
  · rw [rsqrt_at, scatterAdd_eq, zeros_eq, ones_eq, recN_eq]

/-! ## Across the first region -/

theorem w2_keep (b : Ref sig .tc) (hb : b = main_v3 ∨ b = main_v6 ∨ b = main_arg3 ∨ b = main_arg4 ∨ b = main_arg5 ∨ b = main_arg6 ∨ b = main_arg7) :
    W2 m ρ c (Proc.devRef .tc b) = W1 m ρ c (Proc.devRef .tc b) := by
  rcases hb with rfl | rfl | rfl | rfl | rfl | rfl | rfl <;> exact W2_of_ne m ρ c _ (by decide)

theorem w2_v12 : W2 m ρ c (Proc.devRef .tc main_v12) = W1 m ρ c (Proc.devRef .tc main_v12) :=
  (W2_arr m ρ c 2).trans (((dat0 (V1 m ρ) c).arrAt_in 2 rfl _).trans (A_eq0 (V1 m ρ) c 2))

theorem w2_v13 : W2 m ρ c (Proc.devRef .tc main_v13)
    = Cert.Gcn.stage0 (m ((c : Thread nD τ).loc main_arg0)) (m ((c : Thread nD τ).loc main_arg2))
        (Cert.Gcn.dcol (Cert.Gcn.colS (m ((c : Thread nD τ).loc main_arg1)))) := by
  refine (W2_arr m ρ c 3).trans ?_
  refine (Cert.KernelIdeal.Stage0.final (V1 m ρ) c).trans ?_
  show Cert.Gcn.stage0 (W1 m ρ c (Proc.devRef .tc main_arg0)) (W1 m ρ c (Proc.devRef .tc main_arg2)) (W1 m ρ c (Proc.devRef .tc main_v12)) = _
  rw [w1_arg m ρ c main_arg0 (Or.inl rfl), w1_arg m ρ c main_arg2 (Or.inr (Or.inl rfl)), w1_v12]

/-! ## Between the first and the second region -/

theorem w3_keep (b : Ref sig .tc) (hb : b = main_v3 ∨ b = main_v6 ∨ b = main_v12 ∨ b = main_arg4 ∨ b = main_arg5 ∨ b = main_arg6 ∨ b = main_arg7) :
    W3 m ρ c (Proc.devRef .tc b) = W2 m ρ c (Proc.devRef .tc b) := by
  rcases hb with rfl | rfl | rfl | rfl | rfl | rfl | rfl <;>
  · show StableHlo.after hostOps1 (W2 m ρ c) _ = _
    pass_host

theorem rowI_eq (S : IVec S1700000 32) (h : S = Cert.Gcn.sources (m ((c : Thread nD τ).loc main_arg1))) :
    broadcastInDim S1700000x1 ![0] bcast_S1700000_S1700000x1_0
      (select (cmpi .slt S (broadcastInDim S1700000 ![] bcast_S_S1700000 (constantI S_ 32 0#32)))
        (addi S (broadcastInDim S1700000 ![] bcast_S_S1700000 (constantI S_ 32 100000#32))) S)
      = Cert.Gcn.rowI (m ((c : Thread nD τ).loc main_arg1)) := by
  subst h; rfl

theorem colS_eq (T : IVec S1700000 32) (h : T = Cert.Gcn.targets (m ((c : Thread nD τ).loc main_arg1))) :
    broadcastInDim S1700000x1 ![0] bcast_S1700000_S1700000x1_0 T = Cert.Gcn.colS (m ((c : Thread nD τ).loc main_arg1)) := by
  subst h; rfl

theorem w3_v23 : W3 m ρ c (Proc.devRef .tc main_v23)
    = Cert.Gcn.aggregate (Cert.Gcn.colS (m ((c : Thread nD τ).loc main_arg1))) (Cert.Gcn.rowI (m ((c : Thread nD τ).loc main_arg1)))
        (Cert.Gcn.stage0 (m ((c : Thread nD τ).loc main_arg0)) (m ((c : Thread nD τ).loc main_arg2))
          (Cert.Gcn.dcol (Cert.Gcn.colS (m ((c : Thread nD τ).loc main_arg1))))) := by
  show StableHlo.after hostOps1 (W2 m ρ c) (Proc.devRef .tc main_v23) = _
  after_results
  rw [scatterAdd_eq, zeros_eq, recNC_eq, recG_eq, w2_v13,
    colS_eq m c _ ((w2_keep m ρ c main_v6 (Or.inr (Or.inl rfl))).trans (w1_v6 m ρ c)),
    rowI_eq m c _ ((w2_keep m ρ c main_v3 (Or.inl rfl)).trans (w1_v3 m ρ c))]
  rfl

theorem w3_v24 : W3 m ρ c (Proc.devRef .tc main_v24) = fun p : Cert.Gcn.S1C.Idx => m ((c : Thread nD τ).loc main_arg3) (ix1 (p 1)) := by
  show StableHlo.after hostOps1 (W2 m ρ c) (Proc.devRef .tc main_v24) = _
  after_results
  rw [(w2_keep m ρ c main_arg3 (Or.inr (Or.inr (Or.inl rfl)))).trans (w1_arg m ρ c main_arg3 (Or.inr (Or.inr (Or.inl rfl))))]
  funext p
  obtain ⟨z, f, rfl⟩ : ∃ (z : Fin 1) (f : Fin 128), p = ix2 z f := ⟨p 0, p 1, eq_ix2 p⟩
  refine (shapeCast_apply (s := S128) (t := S1x128) _ shapeCasts_S128_S1x128 (ix2 z f) (ix1 f) ?_).trans rfl
  rw [Shape.rowMajor_val_one, Shape.rowMajor_val_two]
  show f.val = z.val * 128 + f.val
  omega

/-! ## Across the second region -/

theorem w4_keep (b : Ref sig .tc) (hb : b = main_v3 ∨ b = main_v6 ∨ b = main_arg5 ∨ b = main_arg6 ∨ b = main_arg7) :
    W4 m ρ c (Proc.devRef .tc b) = W3 m ρ c (Proc.devRef .tc b) := by
  rcases hb with rfl | rfl | rfl | rfl | rfl <;> exact W4_of_ne m ρ c _ (by decide)

theorem w4_v12 : W4 m ρ c (Proc.devRef .tc main_v12) = W3 m ρ c (Proc.devRef .tc main_v12) :=
  (W4_arr m ρ c 1).trans (((dat1 (V3 m ρ) c).arrAt_in 1 rfl _).trans (A_eq1 (V3 m ρ) c 1))

/-- The column d at every later boundary. -/
theorem w3_v12 : W3 m ρ c (Proc.devRef .tc main_v12) = Cert.Gcn.dcol (Cert.Gcn.colS (m ((c : Thread nD τ).loc main_arg1))) :=
  (w3_keep m ρ c main_v12 (Or.inr (Or.inr (Or.inl rfl)))).trans ((w2_v12 m ρ c).trans (w1_v12 m ρ c))

theorem w3_arg4 : W3 m ρ c (Proc.devRef .tc main_arg4) = m ((c : Thread nD τ).loc main_arg4) :=
  (w3_keep m ρ c main_arg4 (Or.inr (Or.inr (Or.inr (Or.inl rfl))))).trans
    ((w2_keep m ρ c main_arg4 (Or.inr (Or.inr (Or.inr (Or.inl rfl))))).trans (w1_arg m ρ c main_arg4 (Or.inr (Or.inr (Or.inr (Or.inl rfl))))))

theorem w4_v25 : W4 m ρ c (Proc.devRef .tc main_v25)
    = Cert.Gcn.stage1 (Cert.Gcn.aggregate (Cert.Gcn.colS (m ((c : Thread nD τ).loc main_arg1))) (Cert.Gcn.rowI (m ((c : Thread nD τ).loc main_arg1)))
        (Cert.Gcn.stage0 (m ((c : Thread nD τ).loc main_arg0)) (m ((c : Thread nD τ).loc main_arg2))
          (Cert.Gcn.dcol (Cert.Gcn.colS (m ((c : Thread nD τ).loc main_arg1))))))
        (Cert.Gcn.dcol (Cert.Gcn.colS (m ((c : Thread nD τ).loc main_arg1))))
        (fun p : Cert.Gcn.S1C.Idx => m ((c : Thread nD τ).loc main_arg3) (ix1 (p 1))) (m ((c : Thread nD τ).loc main_arg4)) := by
  refine (W4_arr m ρ c 4).trans ?_
  refine (Cert.KernelIdeal.Stage1.final (V3 m ρ) c).trans ?_
  show Cert.Gcn.stage1 (W3 m ρ c (Proc.devRef .tc main_v23)) (W3 m ρ c (Proc.devRef .tc main_v12)) (W3 m ρ c (Proc.devRef .tc main_v24)) (W3 m ρ c (Proc.devRef .tc main_arg4)) = _
  rw [w3_v23, w3_v12, w3_v24, w3_arg4]

/-! ## Between the second and the third region -/

theorem w5_keep (b : Ref sig .tc) (hb : b = main_v12 ∨ b = main_arg6) :
    W5 m ρ c (Proc.devRef .tc b) = W4 m ρ c (Proc.devRef .tc b) := by
  rcases hb with rfl | rfl <;>
  · show StableHlo.after hostOps2 (W4 m ρ c) _ = _
    pass_host

theorem w4_v3 : W4 m ρ c (Proc.devRef .tc main_v3) = Cert.Gcn.sources (m ((c : Thread nD τ).loc main_arg1)) :=
  (w4_keep m ρ c main_v3 (Or.inl rfl)).trans ((w3_keep m ρ c main_v3 (Or.inl rfl)).trans
    ((w2_keep m ρ c main_v3 (Or.inl rfl)).trans (w1_v3 m ρ c)))

theorem w4_v6 : W4 m ρ c (Proc.devRef .tc main_v6) = Cert.Gcn.targets (m ((c : Thread nD τ).loc main_arg1)) :=
  (w4_keep m ρ c main_v6 (Or.inr (Or.inl rfl))).trans ((w3_keep m ρ c main_v6 (Or.inr (Or.inl rfl))).trans
    ((w2_keep m ρ c main_v6 (Or.inr (Or.inl rfl))).trans (w1_v6 m ρ c)))

theorem w4_arg (b : Ref sig .tc) (hb : b = main_arg5 ∨ b = main_arg6 ∨ b = main_arg7) :
    W4 m ρ c (Proc.devRef .tc b) = m ((c : Thread nD τ).loc b) := by
  rcases hb with rfl | rfl | rfl
  · exact (w4_keep m ρ c _ (by simp)).trans ((w3_keep m ρ c _ (by simp)).trans ((w2_keep m ρ c _ (by simp)).trans (w1_arg m ρ c _ (by simp))))
  · exact (w4_keep m ρ c _ (by simp)).trans ((w3_keep m ρ c _ (by simp)).trans ((w2_keep m ρ c _ (by simp)).trans (w1_arg m ρ c _ (by simp))))
  · exact (w4_keep m ρ c _ (by simp)).trans ((w3_keep m ρ c _ (by simp)).trans ((w2_keep m ρ c _ (by simp)).trans (w1_arg m ρ c _ (by simp))))

theorem w5_v35 : W5 m ρ c (Proc.devRef .tc main_v35)
    = Cert.Gcn.aggregate (Cert.Gcn.colS (m ((c : Thread nD τ).loc main_arg1))) (Cert.Gcn.rowI (m ((c : Thread nD τ).loc main_arg1)))
        (W4 m ρ c (Proc.devRef .tc main_v25)) := by
  show StableHlo.after hostOps2 (W4 m ρ c) (Proc.devRef .tc main_v35) = _
  after_results
  rw [scatterAdd_eq, zeros_eq, recNC_eq, recG_eq, colS_eq m c _ (w4_v6 m ρ c), rowI_eq m c _ (w4_v3 m ρ c)]
  rfl

theorem w5_v36 : W5 m ρ c (Proc.devRef .tc main_v36) = fun p : Cert.Gcn.S1C.Idx => m ((c : Thread nD τ).loc main_arg5) (ix1 (p 1)) := by
  show StableHlo.after hostOps2 (W4 m ρ c) (Proc.devRef .tc main_v36) = _
  after_results
  rw [w4_arg m ρ c main_arg5 (Or.inl rfl)]
  funext p
  obtain ⟨z, f, rfl⟩ : ∃ (z : Fin 1) (f : Fin 128), p = ix2 z f := ⟨p 0, p 1, eq_ix2 p⟩
  refine (shapeCast_apply (s := S128) (t := S1x128) _ shapeCasts_S128_S1x128 (ix2 z f) (ix1 f) ?_).trans rfl
  rw [Shape.rowMajor_val_one, Shape.rowMajor_val_two]
  show f.val = z.val * 128 + f.val
  omega

theorem w5_v37 : W5 m ρ c (Proc.devRef .tc main_v37) = fun _ : Cert.Gcn.S11.Idx => m ((c : Thread nD τ).loc main_arg7) (ix1 0) := by
  show StableHlo.after hostOps2 (W4 m ρ c) (Proc.devRef .tc main_v37) = _
  after_results
  rw [w4_arg m ρ c main_arg7 (Or.inr (Or.inr rfl))]
  funext p
  obtain ⟨z, f, rfl⟩ : ∃ (z : Fin 1) (f : Fin 1), p = ix2 z f := ⟨p 0, p 1, eq_ix2 p⟩
  refine (shapeCast_apply (s := S1) (t := S1x1) _ shapeCasts_S1_S1x1 (ix2 z f) (ix1 0) ?_).trans rfl
  rw [Shape.rowMajor_val_one, Shape.rowMajor_val_two]
  show (0 : Fin 1).val = z.val * 1 + f.val
  omega

theorem w5_v12 : W5 m ρ c (Proc.devRef .tc main_v12) = Cert.Gcn.dcol (Cert.Gcn.colS (m ((c : Thread nD τ).loc main_arg1))) :=
  (w5_keep m ρ c main_v12 (Or.inl rfl)).trans ((w4_v12 m ρ c).trans (w3_v12 m ρ c))

theorem w5_arg6 : W5 m ρ c (Proc.devRef .tc main_arg6) = m ((c : Thread nD τ).loc main_arg6) :=
  (w5_keep m ρ c main_arg6 (Or.inr rfl)).trans (w4_arg m ρ c main_arg6 (Or.inr (Or.inl rfl)))

/-! ## The third region and the result -/

theorem w6_v38 : W6 m ρ c (Proc.devRef .tc main_v38)
    = Cert.Gcn.stage2 (Cert.Gcn.aggregate (Cert.Gcn.colS (m ((c : Thread nD τ).loc main_arg1))) (Cert.Gcn.rowI (m ((c : Thread nD τ).loc main_arg1)))
          (W4 m ρ c (Proc.devRef .tc main_v25)))
        (Cert.Gcn.dcol (Cert.Gcn.colS (m ((c : Thread nD τ).loc main_arg1))))
        (fun p : Cert.Gcn.S1C.Idx => m ((c : Thread nD τ).loc main_arg5) (ix1 (p 1))) (m ((c : Thread nD τ).loc main_arg6))
        (fun _ : Cert.Gcn.S11.Idx => m ((c : Thread nD τ).loc main_arg7) (ix1 0)) := by
  refine (W6_arr m ρ c 5).trans ?_
  refine (Cert.KernelIdeal.Stage2.final (V5 m ρ) c).trans ?_
  show Cert.Gcn.stage2 (W5 m ρ c (Proc.devRef .tc main_v35)) (W5 m ρ c (Proc.devRef .tc main_v12)) (W5 m ρ c (Proc.devRef .tc main_v36)) (W5 m ρ c (Proc.devRef .tc main_arg6)) (W5 m ρ c (Proc.devRef .tc main_v37)) = _
  rw [w5_v35, w5_v12, w5_v36, w5_arg6, w5_v37]

/-- The result array after the run: the arrangement scaled at the nodes, of the argument arrays. -/
theorem value : W7 m ρ c (Proc.devRef .tc main_v39)
    = Cert.Gcn.nodeScaled (Cert.Gcn.colS (m ((c : Thread nD τ).loc main_arg1))) (Cert.Gcn.rowI (m ((c : Thread nD τ).loc main_arg1)))
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  show StableHlo.after hostOps3 (W6 m ρ c) (Proc.devRef .tc main_v39) = _
  after_results
  rw [w6_v38, w4_v25]
  funext n
  obtain ⟨k, rfl⟩ : ∃ k : Fin 100000, n = ix1 k := ⟨n 0, eq_ix1 n⟩
  refine (shapeCast_apply (s := S100000x1) (t := S100000) _ shapeCasts_S100000x1_S100000 (ix1 k) (ix2 k (0 : Fin 1)) ?_).trans rfl
  rw [Shape.rowMajor_val_one, Shape.rowMajor_val_two]
  show k.val * 1 + (0 : Fin 1).val = k.val
  omega

end Cert.KernelIdeal.Fold

end
-- ==== Proof.RefSide.lean ====
/-
  The reference program computes the graph convolution in the arrangement scaled at the edges.

  Its result, one long composition of host operations, is read stage by stage: the index arrays its gathers and scatters
  read are the edge lists of the specification (targets as scattered, sources and targets as gathered); the scatter of
  ones into zeros followed by the reciprocal square root is deg^(-1/2); the product of its two gathers is the weight of an
  edge; each propagation is a dense product, gathered along the edges, weighted, scatter-added at the targets, plus a bias;
  the head is the last dense product plus its bias through 1 / (1 + exp (-x)).
-/
import proofs.«157852_j45268955300496_2_alg».proof.Proof.Gen.ReferenceIdeal.Read
import proofs.«157852_j45268955300496_2_alg».proof.Proof.Spec
import proofs.«157852_j45268955300496_2_alg».proof.Proof.Edges
import proofs.«157852_j45268955300496_2_alg».proof.Proof.Consts

noncomputable section
open Idealize.ShloMosaic Idealize.ShloMosaic.TcCoe Idealize.SL.Sem Idealize.ShloMosaic.ValueIdx

namespace Cert.ReferenceIdeal.RefValue
open Cert.ReferenceIdeal Cert.ReferenceIdeal.Gen Cert.ReferenceIdeal.Read
open scoped BigOperators

/-! The dimension records the program prints are the specification's. -/
theorem scatN_eq : scatter_S100000_S1700000x1_S1700000_n_0_0_1 = Cert.Gcn.scatN := rfl
theorem scatNC_eq : scatter_S100000x128_S1700000x1_S1700000x128_1_0_0_1 = Cert.Gcn.scatNC := rfl
theorem gathN_eq : gather_S100000_S1700000x1_S1700000_n_0_n_n_0_1_1 = Cert.Gcn.gathN := rfl
theorem gathNC_eq : gather_S100000x128_S1700000x1_S1700000x128_1_0_n_n_0_1_1128 = Cert.Gcn.gathNC := rfl

abbrev EArr := (⟨S2x1600000, .i32⟩ : BufTy).Contents (Elt Ideal)

theorem v6_eq (E : EArr) : val_main_v6 (F := Ideal) E = Cert.Gcn.targets E := by
  unfold val_main_v6 val_main_v5 val_main_v4 val_main_v0 Cert.Gcn.targets
  rfl
theorem v3_eq (E : EArr) : val_main_v3 (F := Ideal) E = Cert.Gcn.sources E := by
  unfold val_main_v3 val_main_v2 val_main_v1 val_main_v0 Cert.Gcn.sources
  rfl

/-! The index arrays the gathers and scatters read are the edge lists of the specification. -/
theorem v9_eq (E : EArr) : val_main_v9 (F := Ideal) E = Cert.Gcn.colS E := by
  unfold val_main_v9 Cert.Gcn.colS Cert.Gcn.asColumn
  rw [v6_eq]
theorem v39_eq (E : EArr) : val_main_v39 (F := Ideal) E = Cert.Gcn.colS E := by
  unfold val_main_v39 Cert.Gcn.colS Cert.Gcn.asColumn
  rw [v6_eq]
theorem v57_eq (E : EArr) : val_main_v57 (F := Ideal) E = Cert.Gcn.colS E := by
  unfold val_main_v57 Cert.Gcn.colS Cert.Gcn.asColumn
  rw [v6_eq]
theorem v17_eq (E : EArr) : val_main_v17 (F := Ideal) E = Cert.Gcn.rowI E := by
  unfold val_main_v17 val_main_v16 val_main_v15 val_main_v14 val_main_c_1 val_main_v13 val_main_v12 val_main_c
    Cert.Gcn.rowI Cert.Gcn.asColumn Cert.Gcn.wrap
  rw [v3_eq]
theorem v34_eq (E : EArr) : val_main_v34 (F := Ideal) E = Cert.Gcn.rowI E := by
  unfold val_main_v34 val_main_v33 val_main_v32 val_main_v31 val_main_c_5 val_main_v30 val_main_v29 val_main_c_4
    Cert.Gcn.rowI Cert.Gcn.asColumn Cert.Gcn.wrap
  rw [v3_eq]
theorem v52_eq (E : EArr) : val_main_v52 (F := Ideal) E = Cert.Gcn.rowI E := by
  unfold val_main_v52 val_main_v51 val_main_v50 val_main_v49 val_main_c_8 val_main_v48 val_main_v47 val_main_c_7
    Cert.Gcn.rowI Cert.Gcn.asColumn Cert.Gcn.wrap
  rw [v3_eq]
theorem v24_eq (E : EArr) : val_main_v24 (F := Ideal) E = Cert.Gcn.colI E := by
  unfold val_main_v24 val_main_v23 val_main_v22 val_main_v21 val_main_c_3 val_main_v20 val_main_v19 val_main_c_2
    Cert.Gcn.colI Cert.Gcn.asColumn Cert.Gcn.wrap
  rw [v6_eq]

/-! The constant arrays. -/
theorem v7_eq : val_main_v7 (F := Ideal) = fun _ => (1 : EReal) := by
  funext i; rw [val_main_v7_apply, val_main_cst_apply, Ideal.ofBits_def, Cert.Gcn.Consts.ofBits_one]
theorem v8_eq : val_main_v8 (F := Ideal) = fun _ => (0 : EReal) := by
  funext i; rw [val_main_v8_apply, val_main_cst_0_apply, Ideal.ofBits_def, Cert.Gcn.Consts.ofBits_zero]
theorem v38_eq : val_main_v38 (F := Ideal) = fun _ => (0 : EReal) := by
  funext i; rw [val_main_v38_apply, val_main_cst_6_apply, Ideal.ofBits_def, Cert.Gcn.Consts.ofBits_zero]
theorem v56_eq : val_main_v56 (F := Ideal) = fun _ => (0 : EReal) := by
  funext i; rw [val_main_v56_apply, val_main_cst_9_apply, Ideal.ofBits_def, Cert.Gcn.Consts.ofBits_zero]

/-! The degrees: the scatter of ones into zeros; then deg^(-1/2). -/
theorem v10_eq (E : EArr) : val_main_v10 (F := Ideal) E = Cert.Gcn.deg (Cert.Gcn.colS E) := by
  unfold val_main_v10 Cert.Gcn.deg Host.scatterAdd
  rw [Ideal.hostScatterAdd_def, v8_eq, v9_eq, v7_eq, scatN_eq]
theorem v11_eq (E : EArr) : val_main_v11 (F := Ideal) E = Cert.Gcn.dinv (Cert.Gcn.colS E) := by
  funext n
  rw [val_main_v11_apply, Ideal.hostUnary_rsqrt_def, v10_eq]
  rfl

/-! The weight of an edge: deg^(-1/2) gathered at its source times deg^(-1/2) gathered at its target. -/
theorem v18_eq (E : EArr) :
    val_main_v18 (F := Ideal) E = Host.gather Cert.Gcn.gathN (Cert.Gcn.dinv (Cert.Gcn.colS E)) (Cert.Gcn.rowI E) := by
  unfold val_main_v18
  rw [v11_eq, v17_eq, gathN_eq]
theorem v25_eq (E : EArr) :
    val_main_v25 (F := Ideal) E = Host.gather Cert.Gcn.gathN (Cert.Gcn.dinv (Cert.Gcn.colS E)) (Cert.Gcn.colI E) := by
  unfold val_main_v25
  rw [v11_eq, v24_eq, gathN_eq]

theorem v26_eq (E : EArr) :
    val_main_v26 (F := Ideal) E = Cert.Gcn.norm (Cert.Gcn.colS E) (Cert.Gcn.rowI E) (Cert.Gcn.colI E) := by
  funext e
  rw [val_main_v26_apply, v18_eq, v25_eq, Ideal.mulf_def]
  unfold Cert.Gcn.norm
  exact Eq.refl _

/-! Index functions of the generated reading, by coordinates. -/
theorem lidx27 (i : S100000x128.Idx) (k : Fin 128) : lidx_main_v27 i k = ix2 (i 0) k :=
  funext fun a => Fin.ext (by match a with | ⟨0, _⟩ => rfl | ⟨1, _⟩ => rfl)
theorem ridx27 (i : S100000x128.Idx) (k : Fin 128) : ridx_main_v27 i k = ix2 k (i 1) :=
  funext fun a => Fin.ext (by match a with | ⟨0, _⟩ => rfl | ⟨1, _⟩ => rfl)
theorem lidx45 (i : S100000x128.Idx) (k : Fin 128) : lidx_main_v45 i k = ix2 (i 0) k :=
  funext fun a => Fin.ext (by match a with | ⟨0, _⟩ => rfl | ⟨1, _⟩ => rfl)
theorem ridx45 (i : S100000x128.Idx) (k : Fin 128) : ridx_main_v45 i k = ix2 k (i 1) :=
  funext fun a => Fin.ext (by match a with | ⟨0, _⟩ => rfl | ⟨1, _⟩ => rfl)
theorem idx28_36 (j : S1700000x128.Idx) : idx_main_v28 (idx_main_v36 j) = ix1 (j 0) :=
  funext fun a => Fin.ext (by match a with | ⟨0, _⟩ => rfl)
theorem idx46_54 (j : S1700000x128.Idx) : idx_main_v46 (idx_main_v54 j) = ix1 (j 0) :=
  funext fun a => Fin.ext (by match a with | ⟨0, _⟩ => rfl)
theorem idx41_42 (i : S100000x128.Idx) : idx_main_v41 (idx_main_v42 i) = ix1 (i 1) :=
  funext fun a => Fin.ext (by match a with | ⟨0, _⟩ => rfl)
theorem idx59_60 (i : S100000x128.Idx) : idx_main_v59 (idx_main_v60 i) = ix1 (i 1) :=
  funext fun a => Fin.ext (by match a with | ⟨0, _⟩ => rfl)

abbrev NC := (⟨S100000x128, .f32⟩ : BufTy).Contents (Elt Ideal)
abbrev CC := (⟨S128x128, .f32⟩ : BufTy).Contents (Elt Ideal)
abbrev C1 := (⟨S128, .f32⟩ : BufTy).Contents (Elt Ideal)

/-- The first dense product. -/
theorem v27_eq (X : NC) (W : CC) : val_main_v27 (F := Ideal) X W = Cert.Gcn.dense X W := by
  funext i
  rw [val_main_v27_apply]
  unfold Cert.Gcn.dense
  refine Finset.sum_congr rfl fun k _ => ?_
  rw [lidx27, ridx27]
  rfl

/-! The first propagation. -/
theorem v35_eq (X : NC) (E : EArr) (W : CC) :
    val_main_v35 (F := Ideal) X E W = Host.gather Cert.Gcn.gathNC (Cert.Gcn.dense X W) (Cert.Gcn.rowI E) := by
  unfold val_main_v35
  rw [v27_eq, v34_eq, gathNC_eq]
theorem v37_eq (X : NC) (E : EArr) (W : CC) :
    val_main_v37 (F := Ideal) X E W
      = fun j => Cert.Gcn.norm (Cert.Gcn.colS E) (Cert.Gcn.rowI E) (Cert.Gcn.colI E) (ix1 (j 0))
          * Host.gather Cert.Gcn.gathNC (Cert.Gcn.dense X W) (Cert.Gcn.rowI E) j := by
  funext j
  rw [val_main_v37_apply, Ideal.mulf_def, val_main_v36_apply, val_main_v28_apply, v26_eq, v35_eq, idx28_36]
  rfl
theorem v40_eq (X : NC) (E : EArr) (W : CC) :
    val_main_v40 (F := Ideal) X E W
      = Ideal.hostScatterAdd Cert.Gcn.scatNC (fun _ => 0) (Cert.Gcn.colS E)
          (fun j => Cert.Gcn.norm (Cert.Gcn.colS E) (Cert.Gcn.rowI E) (Cert.Gcn.colI E) (ix1 (j 0))
            * Host.gather Cert.Gcn.gathNC (Cert.Gcn.dense X W) (Cert.Gcn.rowI E) j) := by
  unfold val_main_v40 Host.scatterAdd
  rw [Ideal.hostScatterAdd_def, v38_eq, v39_eq, v37_eq, scatNC_eq]
theorem v42_apply (b : C1) (i : S100000x128.Idx) : val_main_v42 (F := Ideal) b i = b (ix1 (i 1)) := by
  rw [val_main_v42_apply, val_main_v41_apply, idx41_42]
  rfl
theorem v43_eq (X : NC) (E : EArr) (W : CC) (b : C1) :
    val_main_v43 (F := Ideal) X E W b
      = Cert.Gcn.conv (Cert.Gcn.colS E) (Cert.Gcn.rowI E) (Cert.Gcn.colI E) (Cert.Gcn.dense X W) b := by
  funext i
  rw [val_main_v43_apply, Ideal.addf_def, v40_eq, v42_apply]
  unfold Cert.Gcn.conv
  exact Eq.refl _

/-! The rectifier between the two propagations, and the second dense product. -/
theorem v44_eq (X : NC) (E : EArr) (W : CC) (b : C1) :
    val_main_v44 (F := Ideal) X E W b
      = fun i => max (Cert.Gcn.conv (Cert.Gcn.colS E) (Cert.Gcn.rowI E) (Cert.Gcn.colI E) (Cert.Gcn.dense X W) b i) 0 := by
  funext i
  rw [val_main_v44_apply, Ideal.maximumf_def, val_main_call0_v0_apply, val_main_call0_cst_apply, Ideal.ofBits_def,
    Cert.Gcn.Consts.ofBits_zero, v43_eq]
theorem v45_eq (X : NC) (E : EArr) (W : CC) (b : C1) (W2 : CC) :
    val_main_v45 (F := Ideal) X E W b W2
      = Cert.Gcn.dense (fun i => max (Cert.Gcn.conv (Cert.Gcn.colS E) (Cert.Gcn.rowI E) (Cert.Gcn.colI E)
          (Cert.Gcn.dense X W) b i) 0) W2 := by
  funext i
  rw [val_main_v45_apply, v44_eq]
  unfold Cert.Gcn.dense
  refine Finset.sum_congr rfl fun k _ => ?_
  rw [lidx45, ridx45]
  rfl

/-! The second propagation. -/
theorem v53_eq (X : NC) (E : EArr) (W : CC) (b : C1) (W2 : CC) :
    val_main_v53 (F := Ideal) X E W b W2
      = Host.gather Cert.Gcn.gathNC (val_main_v45 (F := Ideal) X E W b W2) (Cert.Gcn.rowI E) := by
  unfold val_main_v53
  rw [v52_eq, gathNC_eq]
theorem v55_eq (X : NC) (E : EArr) (W : CC) (b : C1) (W2 : CC) :
    val_main_v55 (F := Ideal) X E W b W2
      = fun j => Cert.Gcn.norm (Cert.Gcn.colS E) (Cert.Gcn.rowI E) (Cert.Gcn.colI E) (ix1 (j 0))
          * Host.gather Cert.Gcn.gathNC (val_main_v45 (F := Ideal) X E W b W2) (Cert.Gcn.rowI E) j := by
  funext j
  rw [val_main_v55_apply, Ideal.mulf_def, val_main_v54_apply, val_main_v46_apply, v26_eq, v53_eq, idx46_54]
  rfl
theorem v58_eq (X : NC) (E : EArr) (W : CC) (b : C1) (W2 : CC) :
    val_main_v58 (F := Ideal) X E W b W2
      = Ideal.hostScatterAdd Cert.Gcn.scatNC (fun _ => 0) (Cert.Gcn.colS E)
          (fun j => Cert.Gcn.norm (Cert.Gcn.colS E) (Cert.Gcn.rowI E) (Cert.Gcn.colI E) (ix1 (j 0))
            * Host.gather Cert.Gcn.gathNC (val_main_v45 (F := Ideal) X E W b W2) (Cert.Gcn.rowI E) j) := by
  unfold val_main_v58 Host.scatterAdd
  rw [Ideal.hostScatterAdd_def, v56_eq, v57_eq, v55_eq, scatNC_eq]
theorem v60_apply (b : C1) (i : S100000x128.Idx) : val_main_v60 (F := Ideal) b i = b (ix1 (i 1)) := by
  rw [val_main_v60_apply, val_main_v59_apply, idx59_60]
  rfl
theorem v61_eq (X : NC) (E : EArr) (W : CC) (b : C1) (W2 : CC) (b2 : C1) :
    val_main_v61 (F := Ideal) X E W b W2 b2
      = Cert.Gcn.conv (Cert.Gcn.colS E) (Cert.Gcn.rowI E) (Cert.Gcn.colI E)
          (Cert.Gcn.dense (fun i => max (Cert.Gcn.conv (Cert.Gcn.colS E) (Cert.Gcn.rowI E) (Cert.Gcn.colI E)
            (Cert.Gcn.dense X W) b i) 0) W2) b2 := by
  funext i
  rw [val_main_v61_apply, Ideal.addf_def, v58_eq, v60_apply, v45_eq]
  unfold Cert.Gcn.conv
  exact Eq.refl _

/-! The head: the last dense product, its bias, and the logistic function spelt 1 / (1 + exp (-x)). -/
theorem lidx62 (n : S100000.Idx) (k : Fin 128) : lidx_main_v62 (idx_main_v72 n) k = ix2 (n 0) k :=
  funext fun a => Fin.ext (by
    match a with
    | ⟨0, _⟩ => exact Nat.div_one _
    | ⟨1, _⟩ => rfl)
theorem ridx62 (n : S100000.Idx) (k : Fin 128) : ridx_main_v62 (idx_main_v72 n) k = ix2 k 0 :=
  funext fun a => Fin.ext (by match a with | ⟨0, _⟩ => rfl | ⟨1, _⟩ => rfl)
theorem idx63_64 (i : S100000x1.Idx) : idx_main_v63 (idx_main_v64 i) = ix1 0 :=
  funext fun a => Fin.ext (by match a with | ⟨0, _⟩ => rfl)

abbrev CW := (⟨S128x1, .f32⟩ : BufTy).Contents (Elt Ideal)
abbrev B1 := (⟨S1, .f32⟩ : BufTy).Contents (Elt Ideal)

theorem v72_eq (X : NC) (E : EArr) (W : CC) (b : C1) (W2 : CC) (b2 : C1) (Wc : CW) (bc : B1) :
    val_main_v72 (F := Ideal) X E W b W2 b2 Wc bc
      = Cert.Gcn.edgeScaled (Cert.Gcn.colS E) (Cert.Gcn.rowI E) (Cert.Gcn.colI E) X W b W2 b2 Wc bc := by
  funext n
  rw [val_main_v72_apply, val_main_v71_apply, Ideal.hostDivf_def, val_main_v70_apply, val_main_cst_11_apply,
    Ideal.ofBits_def, Cert.Gcn.Consts.ofBits_one, val_main_v69_apply, Ideal.addf_def, val_main_v68_apply,
    val_main_cst_10_apply, Ideal.ofBits_def, Cert.Gcn.Consts.ofBits_one, val_main_v67_apply, Ideal.hostUnary_exp_def,
    val_main_v66_apply, Ideal.hostNegf_def, Ideal.negf_def, val_main_v65_apply, Ideal.addf_def, val_main_v62_apply,
    v61_eq, val_main_v64_apply, val_main_v63_apply, idx63_64]
  unfold Cert.Gcn.edgeScaled
  refine congrArg (fun s => Ideal.div 1 (1 + Ideal.exp (-(s + bc (ix1 0))))) ?_
  refine Finset.sum_congr rfl fun k _ => ?_
  rw [lidx62, ridx62]
  rfl

theorem result_eq (m : (ℓ : Loc nD τ sig) → Buf (Elt Ideal) ℓ) (c : Dev nD) :
    Cert.ReferenceIdeal.Value.res_out0 (F := Ideal) m c
      = Cert.Gcn.edgeScaled (Cert.Gcn.colS (m ((c.tc : Thread nD τ).loc main_arg1))) (Cert.Gcn.rowI (m ((c.tc : Thread nD τ).loc main_arg1)))
          (Cert.Gcn.colI (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) :=
  (val_main_v72_eq m c).trans (v72_eq _ _ _ _ _ _ _ _)

end Cert.ReferenceIdeal.RefValue
end
-- ==== Proof.EdgeReads.lean ====
/-
  The four index operations of the graph convolution read in closed form: a gather reads its operand at the edge's
  start index (signed, clamped into the array), a scatter-add into zeros is the sum over the edges whose target index
  (signed, not clamped) is the node.
-/
import proofs.«157852_j45268955300496_2_alg».proof.Proof.Spec

noncomputable section

open scoped BigOperators

namespace Cert.Gcn

open Idealize.ShloMosaic Idealize.ShloMosaic.ValueIdx

/-- The node an edge's start index reads: the index word read signed and clamped into [0, 99999]. -/
def src (idx : IVec SE1 32) (e : Fin 1700000) : Fin 100000 :=
  ⟨min (idx (ix2 e 0)).toInt.toNat 99999, by omega⟩

/-- The edges whose target index, read signed, is node n. -/
def inEdges (colS : IVec SE1 32) (n : Fin 100000) : Finset (Fin 1700000) :=
  Finset.univ.filter fun e => (colS (ix2 e 0)).toInt = (n.val : Int)

theorem gatherNC_apply {α : Type} (H : SNC.Idx → α) (idx : IVec SE1 32) (j : SEC.Idx) :
    Host.gather gathNC H idx j = H (ix2 (src idx (j 0)) (j 1)) := by
  unfold Host.gather
  congr 1
  funext a
  refine Fin.ext ?_
  match a with
  | ⟨0, _⟩ =>
    show gathNC.start j idx 0 + gathNC.batchCoord j 0 + gathNC.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gathNC.startIndexMap from List.mem_singleton.mpr rfl)]
    have hsi : gathNC.siIdx j ⟨List.idxOf (0 : Fin 2) gathNC.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show gathNC.start j idx 1 + gathNC.batchCoord j 1 + gathNC.offCoord j 1 = (j 1).val
    rw [GatherDims.batchCoord_eq_zero _ _ _ List.not_mem_nil]
    have hs : gathNC.start j idx 1 = 0 := by
      unfold GatherDims.start
      rw [dif_neg (show (1 : Fin 2) ∉ gathNC.startIndexMap by decide)]
    have ho : gathNC.offCoord j 1 = (j 1).val := by
      unfold GatherDims.offCoord
      rw [dif_pos ((GatherDims.mem_sKept _ _).mpr ⟨by decide, List.not_mem_nil⟩)]
      rfl
    rw [hs, ho]
    omega

theorem gatherN_apply {α : Type} (d : SN.Idx → α) (idx : IVec SE1 32) (e : SE.Idx) :
    Host.gather gathN d idx e = d (ix1 (src idx (e 0))) := by
  unfold Host.gather
  congr 1
  funext a
  obtain rfl : a = 0 := Subsingleton.elim _ _
  refine Fin.ext ?_
  show gathN.start e idx 0 + gathN.batchCoord e 0 + gathN.offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gathN.startIndexMap from List.mem_singleton.mpr rfl)]
  have hsi : gathN.siIdx e ⟨List.idxOf (0 : Fin 1) gathN.startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- Membership in a node's in-edges. -/
private theorem mem_inEdges (colS : IVec SE1 32) (n : Fin 100000) (e : Fin 1700000) :
    e ∈ inEdges colS n ↔ (colS (ix2 e 0)).toInt = (n.val : Int) := by
  unfold inEdges
  rw [Finset.mem_filter]
  exact and_iff_right (Finset.mem_univ _)

/-- The scatter of one row per edge lands entry (e, f) at (n, g) exactly when e's target index, read signed, is n and
    f = g. -/
private theorem scatNC_resultIdx (colS : IVec SE1 32) (j : SEC.Idx) (i : SNC.Idx) :
    scatNC.resultIdx? j colS = some i ↔ (colS (ix2 (j 0) 0)).toInt = ((i 0).val : Int) ∧ j 1 = i 1 := by
  have hs0 : scatNC.start j colS 0 = (colS (ix2 (j 0) 0)).toInt := by
    unfold ScatterDims.start
    rw [dif_pos (show (0 : Fin 2) ∈ scatNC.scatterDimsToOperandDims from List.mem_singleton.mpr rfl)]
    have hsi : scatNC.siIdx j ⟨List.idxOf (0 : Fin 2) scatNC.scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hs1 : scatNC.start j colS 1 = 0 := by
    unfold ScatterDims.start
    rw [dif_neg (show (1 : Fin 2) ∉ scatNC.scatterDimsToOperandDims by decide)]
  have hw0 : scatNC.window j 0 = 0 := by
    unfold ScatterDims.window
    rw [dif_neg (show (0 : Fin 2) ∉ scatNC.sKept by decide)]
  have hw1 : scatNC.window j 1 = (j 1).val := by
    unfold ScatterDims.window
    rw [dif_pos (show (1 : Fin 2) ∈ scatNC.sKept by decide)]
    rfl
  have hi0 : (i 0).val < 100000 := (i 0).isLt
  have hi1 : (i 1).val < 128 := (i 1).isLt
  have hj1 : (j 1).val < 128 := (j 1).isLt
  unfold ScatterDims.resultIdx?
  split
  · rename_i h
    rw [Option.some.injEq]
    constructor
    · intro hn; subst hn
      have h0 := h 0
      refine ⟨?_, Fin.ext ?_⟩
      · show _ = (((scatNC.start j colS 0 + scatNC.window j 0).toNat : Nat) : Int)
        rw [hs0, hw0] at h0 ⊢
        omega
      · show (j 1).val = (scatNC.start j colS 1 + scatNC.window j 1).toNat
        rw [hs1, hw1]; omega
    · rintro ⟨hc, hf⟩; funext a
      refine Fin.ext ?_
      match a with
      | ⟨0, _⟩ =>
        show (scatNC.start j colS 0 + scatNC.window j 0).toNat = (i 0).val
        rw [hs0, hw0, hc]; omega
      | ⟨1, _⟩ =>
        show (scatNC.start j colS 1 + scatNC.window j 1).toNat = (i 1).val
        rw [hs1, hw1, hf]; omega
  · rename_i h
    constructor
    · intro hh; cases hh
    · rintro ⟨hc, hf⟩; exfalso; apply h; intro a
      match a with
      | ⟨0, _⟩ =>
        show 0 ≤ scatNC.start j colS 0 + scatNC.window j 0 ∧
          scatNC.start j colS 0 + scatNC.window j 0 < ((100000 : Nat) : Int)
        rw [hs0, hw0, hc]; omega
      | ⟨1, _⟩ =>
        show 0 ≤ scatNC.start j colS 1 + scatNC.window j 1 ∧
          scatNC.start j colS 1 + scatNC.window j 1 < ((128 : Nat) : Int)
        rw [hs1, hw1]; omega

theorem scatterNC_apply (colS : IVec SE1 32) (upd : SEC.Idx → EReal) (i : SNC.Idx) :
    Ideal.hostScatterAdd scatNC (fun _ => 0) colS upd i = ∑ e ∈ inEdges colS (i 0), upd (ix2 e (i 1)) := by
  show (0 : EReal) + ∑ j ∈ Finset.univ.filter (fun j => scatNC.resultIdx? j colS = some i), upd j = _
  rw [zero_add]
  refine Finset.sum_nbij' (fun j : SEC.Idx => (j 0 : Fin 1700000)) (fun e : Fin 1700000 => (ix2 e (i 1) : SEC.Idx))
    ?_ ?_ ?_ ?_ ?_
  · intro j hj
    exact (mem_inEdges colS (i 0) (j 0)).mpr ((scatNC_resultIdx colS j i).mp (Finset.mem_filter.mp hj).2).1
  · intro e he
    exact Finset.mem_filter.mpr ⟨Finset.mem_univ _,
      (scatNC_resultIdx colS (ix2 e (i 1)) i).mpr ⟨(mem_inEdges colS (i 0) e).mp he, rfl⟩⟩
  · intro j hj
    have hf := ((scatNC_resultIdx colS j i).mp (Finset.mem_filter.mp hj).2).2
    show ix2 (j 0) (i 1) = j
    rw [← hf]; exact (eq_ix2 j).symm
  · intro e _; rfl
  · intro j hj
    have hf := ((scatNC_resultIdx colS j i).mp (Finset.mem_filter.mp hj).2).2
    show upd j = upd (ix2 (j 0) (i 1))
    rw [← hf]; exact congrArg upd (eq_ix2 j)

/-- The scatter of one value per edge lands edge e at node n exactly when e's target index, read signed, is n. -/
private theorem scatN_resultIdx (colS : IVec SE1 32) (j : SE.Idx) (n : SN.Idx) :
    scatN.resultIdx? j colS = some n ↔ (colS (ix2 (j 0) 0)).toInt = ((n 0).val : Int) := by
  have hs0 : scatN.start j colS 0 = (colS (ix2 (j 0) 0)).toInt := by
    unfold ScatterDims.start
    rw [dif_pos (show (0 : Fin 1) ∈ scatN.scatterDimsToOperandDims from List.mem_singleton.mpr rfl)]
    have hsi : scatN.siIdx j ⟨List.idxOf (0 : Fin 1) scatN.scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw0 : scatN.window j 0 = 0 := by
    unfold ScatterDims.window
    rw [dif_neg (show (0 : Fin 1) ∉ scatN.sKept by decide)]
  have hn : (n 0).val < 100000 := (n 0).isLt
  unfold ScatterDims.resultIdx?
  split
  · rename_i h
    rw [Option.some.injEq]
    constructor
    · intro hn; subst hn
      have h0 := h 0
      show _ = (((scatN.start j colS 0 + scatN.window j 0).toNat : Nat) : Int)
      rw [hs0, hw0] at h0 ⊢
      omega
    · intro hc; funext a
      obtain rfl : a = 0 := Subsingleton.elim _ _
      refine Fin.ext ?_
      show (scatN.start j colS 0 + scatN.window j 0).toNat = (n 0).val
      rw [hs0, hw0, hc]; omega
  · rename_i h
    constructor
    · intro hh; cases hh
    · intro hc; exfalso; apply h; intro a
      obtain rfl : a = 0 := Subsingleton.elim _ _
      rw [hs0, hw0, hc]
      refine ⟨by omega, ?_⟩
      show ((n 0).val : Int) + ((0 : Nat) : Int) < ((100000 : Nat) : Int)
      omega

theorem scatterN_apply (colS : IVec SE1 32) (upd : SE.Idx → EReal) (n : SN.Idx) :
    Ideal.hostScatterAdd scatN (fun _ => 0) colS upd n = ∑ e ∈ inEdges colS (n 0), upd (ix1 e) := by
  show (0 : EReal) + ∑ j ∈ Finset.univ.filter (fun j => scatN.resultIdx? j colS = some n), upd j = _
  rw [zero_add]
  refine Finset.sum_nbij' (fun j : SE.Idx => (j 0 : Fin 1700000)) (fun e : Fin 1700000 => (ix1 e : SE.Idx)) ?_ ?_ ?_ ?_ ?_
  · intro j hj
    exact (mem_inEdges colS (n 0) (j 0)).mpr ((scatN_resultIdx colS j n).mp (Finset.mem_filter.mp hj).2)
  · intro e he
    exact Finset.mem_filter.mpr ⟨Finset.mem_univ _, (scatN_resultIdx colS (ix1 e) n).mpr ((mem_inEdges colS (n 0) e).mp he)⟩
  · intro j _; exact (eq_ix1 j).symm
  · intro e _; rfl
  · intro j _; exact congrArg upd (eq_ix1 j)

end Cert.Gcn

end
-- ==== Proof.Algebra.lean ====
/-
  The two arrangements of the two-layer graph convolution agree.

  With the index operations read in closed form, one aggregation at node n is the sum over the edges landing at n of the
  gathered row. Every node has its self-loop among those edges, so its degree is the cast of a positive natural and
  d n = deg(n)^(-1/2) is the cast of a real that is not negative. A factor of that kind distributes over a finite sum of
  extended reals, which is the one law the rearrangement needs: d n * (sum over e of d(src e) * H(src e)) is the sum over e of
  (d(src e) * d n) * H(src e), and for an edge landing at n the target as a gather reads it is n as well.
-/
import proofs.«157852_j45268955300496_2_alg».proof.Proof.Spec
import proofs.«157852_j45268955300496_2_alg».proof.Proof.EdgeReads

noncomputable section

open scoped BigOperators

namespace Cert.Gcn

open Idealize.ShloMosaic Idealize.ShloMosaic.ValueIdx

/-! ## A factor that is not negative and not ⊤ distributes over a finite sum -/

theorem mul_sum_of_nonneg {ι : Type} (x : EReal) (hx : 0 ≤ x) (hxt : x ≠ ⊤) (s : Finset ι) (f : ι → EReal) :
    x * ∑ e ∈ s, f e = ∑ e ∈ s, x * f e := by
  induction s using Finset.cons_induction with
  | empty => simp
  | cons a s ha ih =>
    rw [Finset.sum_cons, Finset.sum_cons, EReal.left_distrib_of_nonneg_of_ne_top hx hxt, ih]

/-! ## The index operations at coordinates -/

/-- One aggregation at (n, f): the sum over the edges landing at n of the source's row at f. -/
theorem aggregate_apply (colS rowI : IVec SE1 32) (H : SNC.Idx → EReal) (n : Fin 100000) (f : Fin 128) :
    aggregate colS rowI H (ix2 n f) = ∑ e ∈ inEdges colS n, H (ix2 (src rowI e) f) := by
  unfold aggregate
  rw [scatterNC_apply]
  refine Finset.sum_congr rfl fun e _ => ?_
  rw [gatherNC_apply]

/-- The weight of edge e. -/
theorem norm_apply (colS rowI colI : IVec SE1 32) (e : Fin 1700000) :
    norm colS rowI colI (ix1 e) = dinv colS (ix1 (src rowI e)) * dinv colS (ix1 (src colI e)) := by
  unfold norm
  rw [gatherN_apply, gatherN_apply]

/-- One propagation at (n, f). -/
theorem conv_apply (colS rowI colI : IVec SE1 32) (H : SNC.Idx → EReal) (b : SC.Idx → EReal) (n : Fin 100000)
    (f : Fin 128) :
    conv colS rowI colI H b (ix2 n f)
      = (∑ e ∈ inEdges colS n, norm colS rowI colI (ix1 e) * H (ix2 (src rowI e) f)) + b (ix1 f) := by
  unfold conv
  rw [scatterNC_apply]
  refine congrArg (fun t => t + b (ix1 f)) (Finset.sum_congr rfl fun e _ => ?_)
  rw [gatherNC_apply]

/-! ## The edges landing at a node -/

/-- An edge landing at n is gathered at n. -/
theorem src_colI_of_mem {colS colI : IVec SE1 32} (h : EdgeFacts colS colI) {n : Fin 100000} {e : Fin 1700000}
    (he : e ∈ inEdges colS n) : src colI e = n := by
  have hn : (colS (ix2 e 0)).toInt = (n.val : Int) := (Finset.mem_filter.mp he).2
  have h0 : 0 ≤ (colS (ix2 e 0)).toInt := by rw [hn]; exact Int.natCast_nonneg _
  have hc := h.same e h0
  apply Fin.ext
  show min (colI (ix2 e 0)).toInt.toNat 99999 = n.val
  rw [hc, hn, Int.toNat_natCast]
  have := n.isLt
  omega

/-- The self-loop of n lands at n. -/
theorem loop_mem {colS colI : IVec SE1 32} (h : EdgeFacts colS colI) (n : Fin 100000) :
    (⟨1600000 + n.val, by omega⟩ : Fin 1700000) ∈ inEdges colS n := by
  refine Finset.mem_filter.mpr ⟨Finset.mem_univ _, ?_⟩
  rw [h.loop n, BitVec.toInt_eq_toNat_of_lt]
  · rw [BitVec.toNat_ofNat]
    have := n.isLt
    congr 1
    omega
  · rw [BitVec.toNat_ofNat]
    have := n.isLt
    omega

/-- The degree is the number of edges landing at the node. -/
theorem deg_apply (colS : IVec SE1 32) (n : Fin 100000) :
    deg colS (ix1 n) = (((inEdges colS n).card : ℝ) : EReal) := by
  unfold deg
  rw [scatterN_apply]
  show ∑ _e ∈ inEdges colS n, (1 : EReal) = _
  rw [Finset.sum_const, nsmul_one]
  rfl

/-- d n is the cast of a real that is not negative. -/
theorem dinv_real {colS colI : IVec SE1 32} (h : EdgeFacts colS colI) (n : Fin 100000) :
    ∃ r : ℝ, 0 ≤ r ∧ dinv colS (ix1 n) = (r : EReal) := by
  have hpos : 0 < (inEdges colS n).card := Finset.card_pos.mpr ⟨_, loop_mem h n⟩
  have hposR : (0 : ℝ) < ((inEdges colS n).card : ℝ) := by exact_mod_cast hpos
  refine ⟨(Real.sqrt ((inEdges colS n).card : ℝ))⁻¹, inv_nonneg.mpr (Real.sqrt_nonneg _), ?_⟩
  unfold dinv
  rw [deg_apply, Ideal.rsqrt_coe, if_neg (not_lt.mpr hposR.le), if_neg hposR.ne']

theorem dinv_nonneg {colS colI : IVec SE1 32} (h : EdgeFacts colS colI) (n : Fin 100000) :
    0 ≤ dinv colS (ix1 n) := by
  obtain ⟨r, hr, hd⟩ := dinv_real h n
  rw [hd]; exact EReal.coe_nonneg.mpr hr

theorem dinv_ne_top {colS colI : IVec SE1 32} (h : EdgeFacts colS colI) (n : Fin 100000) :
    dinv colS (ix1 n) ≠ ⊤ := by
  obtain ⟨r, _, hd⟩ := dinv_real h n
  rw [hd]; exact EReal.coe_ne_top r

/-! ## One layer -/

/-- Scaling the rows by d at the source before the aggregation and the sum by d at the target after it is one
    propagation with every edge weighted by d(source) · d(target). -/
theorem layer {colS colI : IVec SE1 32} (rowI : IVec SE1 32) (h : EdgeFacts colS colI) (G H : SNC.Idx → EReal)
    (b : SC.Idx → EReal)
    (hG : ∀ (m : Fin 100000) (f : Fin 128), G (ix2 m f) = dinv colS (ix1 m) * H (ix2 m f))
    (n : Fin 100000) (f : Fin 128) :
    dinv colS (ix1 n) * aggregate colS rowI G (ix2 n f) + b (ix1 f) = conv colS rowI colI H b (ix2 n f) := by
  rw [aggregate_apply, conv_apply, mul_sum_of_nonneg _ (dinv_nonneg h n) (dinv_ne_top h n)]
  refine congrArg (fun t => t + b (ix1 f)) (Finset.sum_congr rfl fun e he => ?_)
  rw [hG, norm_apply, src_colI_of_mem h he]
  exact (mul_left_comm _ _ _).trans (mul_assoc _ _ _).symm

/-! ## The two arrangements -/

theorem nodeScaled_eq_edgeScaled (colS rowI colI : IVec SE1 32) (h : EdgeFacts colS colI)
    (X : SNC.Idx → EReal) (W1 : SCC.Idx → EReal) (b1 : SC.Idx → EReal)
    (W2 : SCC.Idx → EReal) (b2 : SC.Idx → EReal) (Wc : SC1.Idx → EReal) (bc : S1'.Idx → EReal) :
    nodeScaled colS rowI X W1 b1 W2 b2 Wc bc = edgeScaled colS rowI colI X W1 b1 W2 b2 Wc bc := by
  funext n
  obtain ⟨m, rfl⟩ : ∃ m : Fin 100000, n = ix1 m := ⟨n 0, eq_ix1 n⟩
  -- the first layer
  have L1 : ∀ (m : Fin 100000) (f : Fin 128),
      dinv colS (ix1 m) * aggregate colS rowI (stage0 X W1 (dcol colS)) (ix2 m f) + b1 (ix1 f)
        = conv colS rowI colI (dense X W1) b1 (ix2 m f) := fun m f =>
    layer rowI h _ _ b1 (fun m f => by
      show dense X W1 (ix2 m f) * dinv colS (ix1 m) = _
      exact mul_comm _ _) m f
  -- the second layer: the fused stage is d at the row's node times the dense product of the first layer's result
  have S1 : ∀ (m : Fin 100000) (f : Fin 128),
      stage1 (aggregate colS rowI (stage0 X W1 (dcol colS))) (dcol colS) (fun p => b1 (ix1 (p 1))) W2 (ix2 m f)
        = dinv colS (ix1 m)
            * dense (fun i => max (conv colS rowI colI (dense X W1) b1 i) 0) W2 (ix2 m f) := fun m f => by
    show dinv colS (ix1 m) * ∑ k : Fin 128,
        max (dinv colS (ix1 m) * aggregate colS rowI (stage0 X W1 (dcol colS)) (ix2 m k) + b1 (ix1 k)) 0
          * W2 (ix2 k f)
      = dinv colS (ix1 m) * ∑ k : Fin 128, max (conv colS rowI colI (dense X W1) b1 (ix2 m k)) 0 * W2 (ix2 k f)
    simp only [L1]
  have L2 : ∀ (m : Fin 100000) (f : Fin 128),
      dinv colS (ix1 m) * aggregate colS rowI
          (stage1 (aggregate colS rowI (stage0 X W1 (dcol colS))) (dcol colS) (fun p => b1 (ix1 (p 1))) W2) (ix2 m f)
          + b2 (ix1 f)
        = conv colS rowI colI (dense (fun i => max (conv colS rowI colI (dense X W1) b1 i) 0) W2) b2 (ix2 m f) :=
    fun m f => layer rowI h _ _ b2 S1 m f
  -- the head
  show Ideal.logistic ((∑ k : Fin 128,
      (dinv colS (ix1 m) * aggregate colS rowI
          (stage1 (aggregate colS rowI (stage0 X W1 (dcol colS))) (dcol colS) (fun p => b1 (ix1 (p 1))) W2) (ix2 m k)
          + b2 (ix1 k)) * Wc (ix2 k 0)) + bc (ix1 0))
    = Ideal.div 1 (1 + Ideal.exp (-((∑ k : Fin 128,
        conv colS rowI colI (dense (fun i => max (conv colS rowI colI (dense X W1) b1 i) 0) W2) b2 (ix2 m k)
          * Wc (ix2 k 0)) + bc (ix1 0))))
  simp only [L2]
  rfl

end Cert.Gcn

end
-- ==== Proof.EdgeFactsProof.lean ====
/-
  The two facts the arrangements need of the edge lists: where an edge's target, read signed, is not negative, the
  wrapped target a gather reads is the target a scatter reads (the wrap moves only negative indices); and the last
  100000 entries of the targets are the self-loops, entry 1600000 + n being n.
-/
import proofs.«157852_j45268955300496_2_alg».proof.Proof.Spec
import proofs.«157852_j45268955300496_2_alg».proof.Proof.Edges
import Idealize.ShloMosaic.Lib.Pipeline.Value
import Idealize.ShloMosaic.Lib.ValueIdx

noncomputable section

namespace Cert.Gcn

open Idealize.ShloMosaic Idealize.ShloMosaic.ValueIdx

/-- An index list viewed as a column reads, at row e, the list's entry e. -/
theorem asColumn_apply (v : IVec SE 32) (e : Fin 1700000) : asColumn v (ix2 e 0) = v (ix1 e) := by
  unfold asColumn
  exact broadcastInDim_apply _ _ v (ix2 e 0) (ix1 e) (fun a => match a with
    | ⟨0, _⟩ => by show e.val = if (1700000 : Nat) = 1 then 0 else e.val; rw [if_neg (by decide)])

/-- The broadcast zero word at an index. -/
theorem zeros_apply (i : SE.Idx) : broadcastInDim SE ![] (by decide) (constantI S0 32 0#32) i = 0#32 :=
  broadcastInDim_apply _ _ (constantI S0 32 0#32) i ix0 (fun a => a.elim0)

/-- A word that is not negative read signed is not below zero in the signed order. -/
theorem slt_zero_of_nonneg (x : BitVec 32) (h : 0 ≤ x.toInt) : IntOp.cmpi .slt x 0#32 = 0#1 := by
  have hz : (0#32 : BitVec 32).toInt = 0 := by decide
  have hs : x.slt 0#32 = false := by
    unfold BitVec.slt
    rw [decide_eq_false_iff_not, hz]
    omega
  show BitVec.ofBool (x.slt 0#32) = 0#1
  rw [hs]
  rfl

/-- The wrap leaves an index that is not negative where it is. -/
theorem wrap_apply_of_nonneg (v : IVec SE 32) (i : SE.Idx) (h : 0 ≤ (v i).toInt) : wrap v i = v i := by
  unfold wrap
  rw [select_apply]
  have hc : cmpi .slt v (broadcastInDim SE ![] (by decide) (constantI S0 32 0#32)) i = 0#1 := by
    show IntOp.cmpi .slt (v i) (broadcastInDim SE ![] _ (constantI S0 32 0#32) i) = 0#1
    rw [zeros_apply]
    exact slt_zero_of_nonneg _ h
  rw [hc, select_zero]

/-- The targets' entry 1600000 + n is the self-loop's n. -/
theorem targets_loop (E : IVec SE2 32) (n : Fin 100000) :
    targets E (ix1 ⟨1600000 + n.val, by omega⟩) = BitVec.ofNat 32 n.val := by
  unfold targets
  exact concatenate_pair_apply_right (0 : Fin SE.rank) _ (iotaInDim SN 32 0) joins (ix1 ⟨1600000 + n.val, by omega⟩) rfl rfl
    (ix1 n) (fun b hb => absurd (Subsingleton.elim _ _) hb) (by show n.val + 1600000 = 1600000 + n.val; omega)

theorem edgeFacts (E : IVec SE2 32) : EdgeFacts (colS E) (colI E) where
  same := fun e h => by
    unfold colI colS at *
    rw [asColumn_apply] at h ⊢
    rw [asColumn_apply]
    exact wrap_apply_of_nonneg _ _ h
  loop := fun n => by
    unfold colS
    rw [asColumn_apply]
    exact targets_loop E n

end Cert.Gcn

end
-- ==== Proof.lean ====
/-
  A two-layer graph convolution with symmetric normalisation: a kernel that scales by deg^(-1/2) at the nodes (before
  the edges gather a row, and after the in-edges' rows are summed) against a reference that weights every edge's
  message by deg^(-1/2)(source) · deg^(-1/2)(target).

  At the extended reals both programs compute one function of the argument arrays. The kernel's result array, read off
  its run through three regions and the host operations between them, is the arrangement scaled at the nodes; the
  reference's composed term is the arrangement scaled at the edges; every node has its self-loop among its in-edges, so
  deg^(-1/2) is the cast of a real that is not negative, a factor that distributes over the finite sum of the in-edges'
  messages, and for an edge landing at a node the target as gathered is that node: the two arrangements are equal.
  The three frames are the programs' runs with the results dropped; the idealization rewrote nothing.
-/
import proofs.«157852_j45268955300496_2_alg».proof.Defs
import proofs.«157852_j45268955300496_2_alg».proof.Proof.Gen.Kernel
import proofs.«157852_j45268955300496_2_alg».proof.Proof.Gen.Kernel.Skeleton
import proofs.«157852_j45268955300496_2_alg».proof.Proof.Gen.Kernel.Launch
import proofs.«157852_j45268955300496_2_alg».proof.Proof.Gen.Kernel.Points
import proofs.«157852_j45268955300496_2_alg».proof.Proof.Gen.Kernel.Frame
import proofs.«157852_j45268955300496_2_alg».proof.Proof.Gen.KernelIdeal
import proofs.«157852_j45268955300496_2_alg».proof.Proof.Gen.KernelIdeal.Skeleton
import proofs.«157852_j45268955300496_2_alg».proof.Proof.Gen.KernelIdeal.Launch
import proofs.«157852_j45268955300496_2_alg».proof.Proof.Gen.KernelIdeal.Points
import proofs.«157852_j45268955300496_2_alg».proof.Proof.Gen.KernelIdeal.Frame
import proofs.«157852_j45268955300496_2_alg».proof.Proof.Gen.ReferenceIdeal
import proofs.«157852_j45268955300496_2_alg».proof.Proof.Gen.Pre_finite_inputs
import proofs.«157852_j45268955300496_2_alg».proof.Proof.Gen.ReferenceIdeal.Run
import proofs.«157852_j45268955300496_2_alg».proof.Proof.Gen.ReferenceIdeal.Read
import proofs.«157852_j45268955300496_2_alg».proof.Proof.KernelRun
import proofs.«157852_j45268955300496_2_alg».proof.Proof.KernelValue
import proofs.«157852_j45268955300496_2_alg».proof.Proof.RefSide
import proofs.«157852_j45268955300496_2_alg».proof.Proof.Algebra
import proofs.«157852_j45268955300496_2_alg».proof.Proof.EdgeFactsProof
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel's run with its result array named: the arrangement scaled at the nodes, of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v39)
          = Cert.Gcn.nodeScaled (Cert.Gcn.colS (m ((c.tc : Thread Cert.KernelIdeal.nD Cert.KernelIdeal.τ).loc Cert.KernelIdeal.main_arg1)))
              (Cert.Gcn.rowI (m ((c.tc : Thread Cert.KernelIdeal.nD Cert.KernelIdeal.τ).loc Cert.KernelIdeal.main_arg1)))
              (m ((c.tc : Thread Cert.KernelIdeal.nD Cert.KernelIdeal.τ).loc Cert.KernelIdeal.main_arg0))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c =>
    ⟨(h c _ (Cert.KernelIdeal.Gen.mem_uc Cert.KernelIdeal.main_v39 (by decide))).trans (Cert.KernelIdeal.Fold.value m ρ c),
     (h c _ (Cert.KernelIdeal.Gen.mem_uc Cert.KernelIdeal.main_arg0 (by decide))).trans (Cert.KernelIdeal.Gen.W7_main_arg0 m ρ c),
     (h c _ (Cert.KernelIdeal.Gen.mem_uc Cert.KernelIdeal.main_arg1 (by decide))).trans (Cert.KernelIdeal.Gen.W7_main_arg1 m ρ c),
     (h c _ (Cert.KernelIdeal.Gen.mem_uc Cert.KernelIdeal.main_arg2 (by decide))).trans (Cert.KernelIdeal.Gen.W7_main_arg2 m ρ c),
     (h c _ (Cert.KernelIdeal.Gen.mem_uc Cert.KernelIdeal.main_arg3 (by decide))).trans (Cert.KernelIdeal.Gen.W7_main_arg3 m ρ c),
     (h c _ (Cert.KernelIdeal.Gen.mem_uc Cert.KernelIdeal.main_arg4 (by decide))).trans (Cert.KernelIdeal.Gen.W7_main_arg4 m ρ c),
     (h c _ (Cert.KernelIdeal.Gen.mem_uc Cert.KernelIdeal.main_arg5 (by decide))).trans (Cert.KernelIdeal.Gen.W7_main_arg5 m ρ c),
     (h c _ (Cert.KernelIdeal.Gen.mem_uc Cert.KernelIdeal.main_arg6 (by decide))).trans (Cert.KernelIdeal.Gen.W7_main_arg6 m ρ c),
     (h c _ (Cert.KernelIdeal.Gen.mem_uc Cert.KernelIdeal.main_arg7 (by decide))).trans (Cert.KernelIdeal.Gen.W7_main_arg7 m ρ c)⟩)
    (Cert.KernelIdeal.Whole.run (F := Ideal) m ρ)

/-- From memories agreeing on the arguments both programs end with the same result array: the kernel's is the
    arrangement scaled at the nodes, the reference's the arrangement scaled at the edges, and the two are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [show Cert.ReferenceIdeal.Value.res_main_v72 (F := Ideal) m' c = Cert.ReferenceIdeal.Value.res_out0 (F := Ideal) m' c from rfl,
    Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Gcn.nodeScaled_eq_edgeScaled _ _ _ (Cert.Gcn.edgeFacts _) _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
